-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S100000 : Shape := ⟨1, ![100000]⟩
abbrev S512x2 : Shape := ⟨2, ![512, 2]⟩
abbrev S256x128 : Shape := ⟨2, ![256, 128]⟩
abbrev S128 : Shape := ⟨1, ![128]⟩
abbrev S128x64 : Shape := ⟨2, ![128, 64]⟩
abbrev S64 : Shape := ⟨1, ![64]⟩
abbrev S66x128 : Shape := ⟨2, ![66, 128]⟩
abbrev S128x1 : Shape := ⟨2, ![128, 1]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S512x2 : S_.BroadcastsInDim S512x2 (![] : Fin 0 → Fin S512x2.rank)
  reducesTo_S512x2_S_d0_1 : S512x2.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S66x128 : S_.BroadcastsInDim S66x128 (![] : Fin 0 → Fin S66x128.rank)
  reducesTo_S66x128_S_d0_1 : S66x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S128 .f32) (main_arg10 : FVec F S128x1 .f32) (main_arg11 : FVec F S1 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg10
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg6 : FVec F S128x64 .f32) (main_arg7 : FVec F S64 .f32) (main_arg8 : FVec F S66x128 .f32) (main_arg9 : FVec F S128 .f32) (main_arg10 : FVec F S128x1 .f32) (main_arg11 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S66x128 .f32 := Host.absf main_arg8
  let main_cst_10 : FVec F S_ .f32 := constant S_ .f32 0x7F800000#32
  let main_v30 : FVec F S66x128 .f32 := broadcastInDim S66x128 ![] bcast_S_S66x128 main_cst_10
  let main_v31 : IVec S66x128 1 := cmpf .olt main_v29 main_v30
  let main_c_11 : IVec S_ 1 := constantI S_ 1 1#1
  let main_v32 : IVec S_ 1 := (fun x v => Host.reduce IntOp.andi x v reducesTo_S66x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x256 .f32) (main_arg1 : IVec S2x1600000 32) (main_arg2 : IVec S100000 32) (main_arg3 : FVec F S512x2 .f32) (main_arg4 : FVec F S256x128 .f32) (main_arg5 : FVec F S128 .f32) (main_arg6 : FVec F S128x64 .f32) (main_arg7 : FVec F S64 .f32) (main_arg8 : FVec F S66x128 .f32) (main_arg9 : FVec F S128 .f32) (main_arg10 : FVec F S128x1 .f32) (main_arg11 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S512x2 .f32 := Host.absf main_arg3
  let main_cst_0 : FVec F S_ .f32 := constant S_ .f32 0x7F800000#32
  let main_v5 : FVec F S512x2 .f32 := broadcastInDim S512x2 ![] bcast_S_S512x2 main_cst_0
  let main_v6 : IVec S512x2 1 := cmpf .olt main_v4 main_v5
  let main_c_1 : IVec S_ 1 := constantI S_ 1 1#1
  let main_v7 : IVec S_ 1 := (fun x v => Host.reduce IntOp.andi x v reducesTo_S512x2_S_d0_1 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x256 : Shape := ⟨2, ![100000, 256]⟩
abbrev S2x1600000 : Shape := ⟨2, ![2, 1600000]⟩
abbrev S100000 : Shape := ⟨1, ![100000]⟩
abbrev S512x2 : Shape := ⟨2, ![512, 2]⟩
abbrev S256x128 : Shape := ⟨2, ![256, 128]⟩
abbrev S128 : Shape := ⟨1, ![128]⟩
abbrev S128x64 : Shape := ⟨2, ![128, 64]⟩
abbrev S64 : Shape := ⟨1, ![64]⟩
abbrev S66x128 : Shape := ⟨2, ![66, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1x128 : Shape := ⟨2, ![1, 128]⟩
abbrev S1x64 : Shape := ⟨2, ![1, 64]⟩
abbrev S100000x128 : Shape := ⟨2, ![100000, 128]⟩
abbrev S5000x256 : Shape := ⟨2, ![5000, 256]⟩
abbrev S5000x128 : Shape := ⟨2, ![5000, 128]⟩
abbrev S1600000x128 : Shape := ⟨2, ![1600000, 128]⟩
abbrev S5000x1 : Shape := ⟨2, ![5000, 1]⟩
abbrev S100000x64 : Shape := ⟨2, ![100000, 64]⟩
abbrev S5000x64 : Shape := ⟨2, ![5000, 64]⟩
abbrev S1600000x64 : Shape := ⟨2, ![1600000, 64]⟩
abbrev S512x64 : Shape := ⟨2, ![512, 64]⟩
abbrev S512 : Shape := ⟨1, ![512]⟩
abbrev S512x1 : Shape := ⟨2, ![512, 1]⟩
abbrev S1x1 : Shape := ⟨2, ![1, 1]⟩
abbrev S512x66 : Shape := ⟨2, ![512, 66]⟩
abbrev S512x128 : Shape := ⟨2, ![512, 128]⟩

abbrev nBuf : Space → Nat
  | .hbm => 104
  | .vmem => 35
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S100000, .i32⟩
  | .hbm, ⟨3, _⟩ => ⟨S512x2, .f32⟩
  | .hbm, ⟨4, _⟩ => ⟨S256x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S66x128, .f32⟩
  | .hbm, ⟨9, _⟩ => ⟨S128, .f32⟩
  | .hbm, ⟨10, _⟩ => ⟨S128x1, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .f32⟩
  | .hbm, ⟨17, _⟩ => ⟨S1600000, .f32⟩
  | .hbm, ⟨18, _⟩ => ⟨S_, .f32⟩
  | .hbm, ⟨19, _⟩ => ⟨S100000, .f32⟩
  | .hbm, ⟨20, _⟩ => ⟨S1600000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S100000, .f32⟩
  | .hbm, ⟨46, _⟩ => ⟨S100000x1, .f32⟩
  | .hbm, ⟨47, _⟩ => ⟨S1x128, .f32⟩
  | .hbm, ⟨48, _⟩ => ⟨S1x64, .f32⟩
  | .hbm, ⟨49, _⟩ => ⟨S100000x128, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x1, .f32⟩
  | .hbm, ⟨60, _⟩ => ⟨S1600000x128, .f32⟩
  | .hbm, ⟨61, _⟩ => ⟨S1600000x128, .f32⟩
  | .hbm, ⟨62, _⟩ => ⟨S_, .f32⟩
  | .hbm, ⟨63, _⟩ => ⟨S100000x128, .f32⟩
  | .hbm, ⟨64, _⟩ => ⟨S1600000x1, .i32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S512x64, .f32⟩
  | .hbm, ⟨87, _⟩ => ⟨S100000x1, .i32⟩
  | .hbm, ⟨88, _⟩ => ⟨S512x64, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S512, .f32⟩
  | .hbm, ⟨93, _⟩ => ⟨S100000x1, .i32⟩
  | .hbm, ⟨94, _⟩ => ⟨S512, .f32⟩
  | .hbm, ⟨95, _⟩ => ⟨S_, .f32⟩
  | .hbm, ⟨96, _⟩ => ⟨S512, .f32⟩
  | .hbm, ⟨97, _⟩ => ⟨S512, .f32⟩
  | .hbm, ⟨98, _⟩ => ⟨S512x1, .f32⟩
  | .hbm, ⟨99, _⟩ => ⟨S512x64, .f32⟩
  | .hbm, ⟨100, _⟩ => ⟨S512x64, .f32⟩
  | .hbm, ⟨101, _⟩ => ⟨S1x128, .f32⟩
  | .hbm, ⟨102, _⟩ => ⟨S1x1, .f32⟩
  | .hbm, ⟨103, _⟩ => ⟨S512x1, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x1, .f32⟩
  | .local _ .vmem, ⟨24, _⟩ => ⟨S5000x1, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | .local _ .vmem, ⟨28, _⟩ => ⟨S512x64, .f32⟩
  | .local _ .vmem, ⟨29, _⟩ => ⟨S512x2, .f32⟩
  | .local _ .vmem, ⟨30, _⟩ => ⟨S66x128, .f32⟩
  | .local _ .vmem, ⟨31, _⟩ => ⟨S1x128, .f32⟩
  | .local _ .vmem, ⟨32, _⟩ => ⟨S128x1, .f32⟩
  | .local _ .vmem, ⟨33, _⟩ => ⟨S1x1, .f32⟩
  | .local _ .vmem, ⟨34, _⟩ => ⟨S512x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_c_8 : Ref sig .tc := ⟨.hbm, 68, rfl⟩
abbrev main_v46 : Ref sig .tc := ⟨.hbm, 69, rfl⟩
abbrev main_v47 : Ref sig .tc := ⟨.hbm, 70, rfl⟩
abbrev main_c_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S512x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S512x2 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S66x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S512x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S128_S1x128 : S128.ShapeCasts S1x128
  shapeCasts_S64_S1x64 : S64.ShapeCasts S1x64
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  shapeCasts_S1_S1x1 : S1.ShapeCasts S1x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S512x2_S512x2_0_0 : ∀ a, (![0, 0] : Fin 2 → Nat) a + S512x2.size a ≤ S512x2.size a
  h_S512x2 : 0 < S512x2.numel
  concatenates_S512x64_S512x2_S512x66_d1 : Shape.Concatenates [S512x64, S512x2] S512x66 1
  inb_S66x128_S66x128_0_0 : ∀ a, (![0, 0] : Fin 2 → Nat) a + S66x128.size a ≤ S66x128.size a
  h_S66x128 : 0 < S66x128.numel
  broadcasts_S1x128_S512x128 : S1x128.Broadcasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x66_S66x128_S512x128_1_0_0_1_n_n_wf : DotDims.WF S512x66 S66x128 S512x128 [1] [0] [0] [1] [] []
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S512x64.size a ≤ S512x64.size a
  hwx4_0 : ∀ i : grid4.Coords, EltTy.bits .f32 = 32 ∨ (Rect.block (s := S512x64) S512x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x2.size a ≤ S512x2.size a
  hwx4_1 : ∀ i : grid4.Coords, EltTy.bits .f32 = 32 ∨ (Rect.block (s := S512x2) S512x2.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S66x128.size a ≤ S66x128.size a
  hwx4_2 : ∀ i : grid4.Coords, EltTy.bits .f32 = 32 ∨ (Rect.block (s := S66x128) S66x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x1.size a ≤ S128x1.size a
  hwx4_4 : ∀ i : grid4.Coords, EltTy.bits .f32 = 32 ∨ (Rect.block (s := S128x1) S128x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x1.size a ≤ S1x1.size a
  hwx4_5 : ∀ i : grid4.Coords, EltTy.bits .f32 = 32 ∨ (Rect.block (s := S1x1) S1x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S512x1.size a ≤ S512x1.size a
  hwx4_6 : ∀ i : grid4.Coords, EltTy.bits .f32 = 32 ∨ (Rect.block (s := S512x1) S512x1.size (cc4_transform_6 i) (hinb4_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x66_S66x128_S512x128_1_0_0_1_n_n : DotDims S512x66 S66x128 S512x128 where
  lhsContracting := [1]
  rhsContracting := [0]
  lhsNonContracting := [0]
  rhsNonContracting := [1]
  lhsBatch := []
  rhsBatch := []
  wf := dot_S512x66_S66x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v71) S512x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg3) S512x2.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S66x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v72) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg10) S128x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S1x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S512x1.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S100000 : Shape := ⟨1, ![100000]⟩
abbrev S512x2 : Shape := ⟨2, ![512, 2]⟩
abbrev S256x128 : Shape := ⟨2, ![256, 128]⟩
abbrev S128 : Shape := ⟨1, ![128]⟩
abbrev S128x64 : Shape := ⟨2, ![128, 64]⟩
abbrev S64 : Shape := ⟨1, ![64]⟩
abbrev S66x128 : Shape := ⟨2, ![66, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S512x64 : Shape := ⟨2, ![512, 64]⟩
abbrev S512 : Shape := ⟨1, ![512]⟩
abbrev S512x1 : Shape := ⟨2, ![512, 1]⟩
abbrev S512x66 : Shape := ⟨2, ![512, 66]⟩
abbrev S512x128 : Shape := ⟨2, ![512, 128]⟩
abbrev S1x1 : Shape := ⟨2, ![1, 1]⟩

abbrev nBuf : Space → Nat
  | .hbm => 163
  | .vmem => 0
  | .smem => 0
  | _ => 0

abbrev hbmTy0_0 (i : Nat) : BufTy := match i % 128 with
  | 0 => ⟨S100000x256, .f32⟩
  | 1 => ⟨S2x1600000, .i32⟩
  | 2 => ⟨S100000, .i32⟩
  | 3 => ⟨S512x2, .f32⟩
  | 4 => ⟨S256x128, .f32⟩
  | 5 => ⟨S128, .f32⟩
  | 6 => ⟨S128x64, .f32⟩
  | 7 => ⟨S64, .f32⟩
  | 8 => ⟨S66x128, .f32⟩
  | 9 => ⟨S128, .f32⟩
  | 10 => ⟨S128x1, .f32⟩
  | 11 => ⟨S1, .f32⟩
  | 12 => ⟨S1x1600000, .i32⟩
  | 13 => ⟨S1600000, .i32⟩
  | 14 => ⟨S1x1600000, .i32⟩
  | 15 => ⟨S1600000, .i32⟩
  | 16 => ⟨S100000x128, .f32⟩
  | 17 => ⟨S_, .f32⟩
  | 18 => ⟨S1600000, .f32⟩
  | 19 => ⟨S_, .f32⟩
  | 20 => ⟨S100000, .f32⟩
  | 21 => ⟨S1600000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1600000, .i32⟩
  | 29 => ⟨S1600000, .i1⟩
  | 30 => ⟨S_, .i32⟩
  | 31 => ⟨S1600000, .i32⟩
  | 32 => ⟨S1600000, .i32⟩
  | 33 => ⟨S1600000, .i32⟩
  | 34 => ⟨S1600000x1, .i32⟩
  | 35 => ⟨S1600000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x128, .f32⟩
  | 55 => ⟨S1600000x1, .f32⟩
  | 56 => ⟨S1600000x128, .f32⟩
  | 57 => ⟨S1600000x128, .f32⟩
  | 58 => ⟨S_, .f32⟩
  | 59 => ⟨S100000x128, .f32⟩
  | 60 => ⟨S1600000x1, .i32⟩
  | 61 => ⟨S100000x128, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x64, .f32⟩
  | 74 => ⟨S_, .f32⟩
  | 75 => ⟨S1600000, .f32⟩
  | 76 => ⟨S_, .f32⟩
  | 77 => ⟨S100000, .f32⟩
  | 78 => ⟨S1600000x1, .i32⟩
  | 79 => ⟨S100000, .f32⟩
  | 80 => ⟨S_, .f32⟩
  | 81 => ⟨S100000, .f32⟩
  | 82 => ⟨S100000, .f32⟩
  | 83 => ⟨S100000, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x64, .f32⟩
  | 112 => ⟨S1600000x1, .f32⟩
  | 113 => ⟨S1600000x64, .f32⟩
  | 114 => ⟨S1600000x64, .f32⟩
  | 115 => ⟨S_, .f32⟩
  | 116 => ⟨S100000x64, .f32⟩
  | 117 => ⟨S1600000x1, .i32⟩
  | 118 => ⟨S100000x64, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x256, .f32⟩

abbrev hbmTy0_1 (i : Nat) : BufTy := match i % 128 with
  | 0 => ⟨S512x64, .f32⟩
  | 1 => ⟨S100000x1, .i32⟩
  | 2 => ⟨S512x64, .f32⟩
  | 3 => ⟨S_, .f32⟩
  | 4 => ⟨S100000, .f32⟩
  | 5 => ⟨S_, .f32⟩
  | 6 => ⟨S512, .f32⟩
  | 7 => ⟨S100000x1, .i32⟩
  | 8 => ⟨S512, .f32⟩
  | 9 => ⟨S_, .f32⟩
  | 10 => ⟨S512, .f32⟩
  | 11 => ⟨S512, .f32⟩
  | 12 => ⟨S512x1, .f32⟩
  | 13 => ⟨S512x64, .f32⟩
  | 14 => ⟨S512x64, .f32⟩
  | 15 => ⟨S512x66, .f32⟩
  | 16 => ⟨S512x128, .f32⟩
  | 17 => ⟨S1x128, .f32⟩
  | 18 => ⟨S512x128, .f32⟩
  | 19 => ⟨S512x128, .f32⟩
  | 20 => ⟨S_, .f32⟩
  | 21 => ⟨S512x128, .f32⟩
  | 22 => ⟨S512x128, .f32⟩
  | 23 => ⟨S512x1, .f32⟩
  | 24 => ⟨S1x1, .f32⟩
  | 25 => ⟨S512x1, .f32⟩
  | 26 => ⟨S512x1, .f32⟩
  | 27 => ⟨S512x1, .f32⟩
  | 28 => ⟨S512x1, .f32⟩
  | 29 => ⟨S_, .f32⟩
  | 30 => ⟨S512x1, .f32⟩
  | 31 => ⟨S512x1, .f32⟩
  | 32 => ⟨S_, .f32⟩
  | 33 => ⟨S512x1, .f32⟩
  | 34 => ⟨S512x1, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call0_cst : Ref sig .tc := ⟨.hbm, 70, rfl⟩
abbrev main_call0_v0 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_cst_9 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_11 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_15 : Ref sig .tc := ⟨.hbm, 103, rfl⟩
abbrev main_v72 : Ref sig .tc := ⟨.hbm, 104, rfl⟩
abbrev main_v73 : Ref sig .tc := ⟨.hbm, 105, rfl⟩
abbrev main_c_16 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_17 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_18 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_19 : Ref sig .tc := ⟨.hbm, 131, rfl⟩
abbrev main_v96 : Ref sig .tc := ⟨.hbm, 132, rfl⟩
abbrev main_cst_20 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_21 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_call1_cst : Ref sig .tc := ⟨.hbm, 148, rfl⟩
abbrev main_call1_v0 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_cst_22 : Ref sig .tc := ⟨.hbm, 157, rfl⟩
abbrev main_v117 : Ref sig .tc := ⟨.hbm, 158, rfl⟩
abbrev main_v118 : Ref sig .tc := ⟨.hbm, 159, rfl⟩
abbrev main_cst_23 : Ref sig .tc := ⟨.hbm, 160, rfl⟩
abbrev main_v119 : Ref sig .tc := ⟨.hbm, 161, rfl⟩
abbrev main_v120 : Ref sig .tc := ⟨.hbm, 162, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  concatenates_S512x64_S512x2_S512x66_d1 : Shape.Concatenates [S512x64, S512x2] S512x66 1
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  bcast_S_S512x1 : S_.BroadcastsInDim S512x1 (![] : Fin 0 → Fin S512x1.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1
  dot_S512x66_S66x128_S512x128_1_0_0_1_n_n_wf : DotDims.WF S512x66 S66x128 S512x128 [1] [0] [0] [1] [] []
  dot_S512x128_S128x1_S512x1_1_0_0_1_n_n_wf : DotDims.WF S512x128 S128x1 S512x1 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x66_S66x128_S512x128_1_0_0_1_n_n : DotDims S512x66 S66x128 S512x128 where
  lhsContracting := [1]
  rhsContracting := [0]
  lhsNonContracting := [0]
  rhsNonContracting := [1]
  lhsBatch := []
  rhsBatch := []
  wf := dot_S512x66_S66x128_S512x128_1_0_0_1_n_n_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.Whole.lean ====
/-
  The whole program's run with the result named.  The run of the nine segments (four stretches of array
  operations and five launches) ends with every buffer at the last boundary's contents; the result buffer is read
  there, and each argument is read back to its launch contents.
-/
import proofs.«108938_j82154134438094_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the contents the last launch leaves and the
    arguments as launched. -/
theorem run : θ_run defs (onTc (τ := τ) (main (F := F))) ⟨m, fun _ => 0, ρ⟩ (fun r => ∀ c : Dev nD,
      r.2.mem ((c.tc : Thread nD τ).loc main_v74) = W9 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v74 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c)⟩)

end Cert.KernelIdeal.Whole

end
-- ==== Proof.Spec.lean ====
/-
  The two-layer graph convolution with mean pooling and a two-layer head, written once as a function of
  the twelve argument arrays over the extended reals.  Each stage is one array-level operation (or a short
  composition of them): the edge list split into sources and targets, the symmetric degree normalisation
  d^(-1/2)[s] * d^(-1/2)[t] with d the in-degree plus one, a dense projection, the normalised messages
  gathered at the sources and summed into the targets, the self contribution and the bias, the per-graph
  mean, and the head  sigmoid (relu ([emb, scalars] W3 + b3) W4 + b4).
-/
import proofs.«108938_j82154134438094_1_alg».proof.ReferenceIdeal
import proofs.«108938_j82154134438094_1_alg».proof.Proof.Gen.ReferenceIdeal
import Idealize.ShloMosaic.PureOps.Ideal

noncomputable section

namespace Cert.Gcn

open Idealize.ShloMosaic Cert.ReferenceIdeal Cert.ReferenceIdeal.Gen

/-- An integer array of shape `S`. -/
abbrev CI (S : Shape) := IVec S 32
/-- A real (extended-real) array of shape `S`. -/
abbrev CF (S : Shape) := FVec Ideal S .f32

/-- The constant array of shape `S` from a scalar bit pattern. -/
abbrev zerosE : CF S1600000 := broadcastInDim S1600000 ![] bcast_S_S1600000 (constant S_ .f32 0x00000000#32)

/-- Row 0 of the edge list: the source node of every edge. -/
def src (ei : CI S2x1600000) : CI S1600000 :=
  shapeCast _ (extractStridedSlice S1x1600000 ![0, 0] ei slices_S2x1600000_S1x1600000_0_0) shapeCasts_S1x1600000_S1600000
/-- Row 1 of the edge list: the target node of every edge. -/
def dst (ei : CI S2x1600000) : CI S1600000 :=
  shapeCast _ (extractStridedSlice S1x1600000 ![1, 0] ei slices_S2x1600000_S1x1600000_1_0) shapeCasts_S1x1600000_S1600000

/-- A node list as a one-column index table. -/
def col (i : CI S1600000) : CI S1600000x1 := broadcastInDim S1600000x1 ![0] bcast_S1600000_S1600000x1_0 i
/-- A node list with negative entries shifted by the node count, as a one-column index table (the index
    convention of a read at a list of positions). -/
def wrap (i : CI S1600000) : CI S1600000x1 :=
  broadcastInDim S1600000x1 ![0] bcast_S1600000_S1600000x1_0
    (select (cmpi .slt i (broadcastInDim S1600000 ![] bcast_S_S1600000 (constantI S_ 32 0#32)))
      (addi i (broadcastInDim S1600000 ![] bcast_S_S1600000 (constantI S_ 32 100000#32))) i)

/-- d^(-1/2) per node, d the number of edges into the node plus one. -/
def dinv (d : CI S1600000) : CF S100000 :=
  Host.rsqrt (addf (Host.scatterAdd scatter_S100000_S1600000x1_S1600000_n_0_0_1
      (broadcastInDim S100000 ![] bcast_S_S100000 (constant S_ .f32 0x00000000#32)) (col d)
      (broadcastInDim S1600000 ![] bcast_S_S1600000 (constant S_ .f32 0x3F800000#32)))
    (broadcastInDim S100000 ![] bcast_S_S100000 (constant S_ .f32 0x3F800000#32)))

/-- The weight of an edge: d^(-1/2) at its source times d^(-1/2) at its target. -/
def norm (s d : CI S1600000) : CF S1600000 :=
  mulf (Host.gather gather_S100000_S1600000x1_S1600000_n_0_n_n_0_1_1 (dinv d) (wrap s))
    (Host.gather gather_S100000_S1600000x1_S1600000_n_0_n_n_0_1_1 (dinv d) (wrap d))

/-- The weight of a node's own contribution, 1/d. -/
def selfTerm (d : CI S1600000) : CF S100000 := mulf (dinv d) (dinv d)

/-- A per-node vector as a one-column matrix. -/
def nodeCol (v : CF S100000) : CF S100000x1 := broadcastInDim S100000x1 ![0] bcast_S100000_S100000x1_0 v
/-- Bias vectors as one-row matrices. -/
def row128 (v : CF S128) : CF S1x128 := broadcastInDim S1x128 ![1] bcast_S128_S1x128_1 v
def row64 (v : CF S64) : CF S1x64 := broadcastInDim S1x64 ![1] bcast_S64_S1x64_1 v
def row1 (v : CF S1) : CF S1x1 := broadcastInDim S1x1 ![1] bcast_S1_S1x1_1 v

/-- First projection: x W1. -/
def lin1 (x : CF S100000x256) (w : CF S256x128) : CF S100000x128 :=
  Host.dotGeneral dot_S100000x256_S256x128_S100000x128_1_0_0_1_n_n none x w
/-- Second projection: h W2. -/
def lin2 (h : CF S100000x128) (w : CF S128x64) : CF S100000x64 :=
  Host.dotGeneral dot_S100000x128_S128x64_S100000x64_1_0_0_1_n_n none h w

/-- Weighted messages summed into their targets, width 128. -/
def agg128 (h : CF S100000x128) (s d : CI S1600000) (w : CF S1600000) : CF S100000x128 :=
  Host.scatterAdd scatter_S100000x128_S1600000x1_S1600000x128_1_0_0_1
    (broadcastInDim S100000x128 ![] bcast_S_S100000x128 (constant S_ .f32 0x00000000#32)) (col d)
    (mulf (Host.gather gather_S100000x128_S1600000x1_S1600000x128_1_0_n_n_0_1_1128 h (wrap s))
      (broadcastInDim S1600000x128 ![0, 1] bcast_S1600000x1_S1600000x128_0_1
        (broadcastInDim S1600000x1 ![0] bcast_S1600000_S1600000x1_0 w)))
/-- Weighted messages summed into their targets, width 64. -/
def agg64 (h : CF S100000x64) (s d : CI S1600000) (w : CF S1600000) : CF S100000x64 :=
  Host.scatterAdd scatter_S100000x64_S1600000x1_S1600000x64_1_0_0_1
    (broadcastInDim S100000x64 ![] bcast_S_S100000x64 (constant S_ .f32 0x00000000#32)) (col d)
    (mulf (Host.gather gather_S100000x64_S1600000x1_S1600000x64_1_0_n_n_0_1_164 h (wrap s))
      (broadcastInDim S1600000x64 ![0, 1] bcast_S1600000x1_S1600000x64_0_1
        (broadcastInDim S1600000x1 ![0] bcast_S1600000_S1600000x1_0 w)))

/-- Layer one after the sum over edges: max (agg + h * self + bias, 0), self a column, bias a row. -/
def post1 (agg h : CF S100000x128) (selfc : CF S100000x1) (biasr : CF S1x128) : CF S100000x128 :=
  maximumf (addf (addf agg (mulf h (broadcastInDim S100000x128 ![0, 1] bcast_S100000x1_S100000x128_0_1 selfc)))
      (broadcastInDim S100000x128 ![0, 1] bcast_S1x128_S100000x128_0_1 biasr))
    (broadcastInDim S100000x128 ![] bcast_S_S100000x128 (constant S_ .f32 0x00000000#32))
/-- Layer two after the sum over edges: agg + h * self + bias. -/
def post2 (agg h : CF S100000x64) (selfc : CF S100000x1) (biasr : CF S1x64) : CF S100000x64 :=
  addf (addf agg (mulf h (broadcastInDim S100000x64 ![0, 1] bcast_S100000x1_S100000x64_0_1 selfc)))
    (broadcastInDim S100000x64 ![0, 1] bcast_S1x64_S100000x64_0_1 biasr)

/-- Per-graph mean of the node features: the sum over a graph's nodes over max (node count, 1). -/
def pool (h : CF S100000x64) (b : CI S100000) : CF S512x64 :=
  Host.divf (Host.scatterAdd scatter_S512x64_S100000x1_S100000x64_1_0_0_1
      (broadcastInDim S512x64 ![] bcast_S_S512x64 (constant S_ .f32 0x00000000#32))
      (broadcastInDim S100000x1 ![0] bcast_S100000_S100000x1_0 b) h)
    (broadcastInDim S512x64 ![0, 1] bcast_S512x1_S512x64_0_1
      (broadcastInDim S512x1 ![0] bcast_S512_S512x1_0
        (maximumf (Host.scatterAdd scatter_S512_S100000x1_S100000_n_0_0_1
            (broadcastInDim S512 ![] bcast_S_S512 (constant S_ .f32 0x00000000#32))
            (broadcastInDim S100000x1 ![0] bcast_S100000_S100000x1_0 b)
            (broadcastInDim S100000 ![] bcast_S_S100000 (constant S_ .f32 0x3F800000#32)))
          (broadcastInDim S512 ![] bcast_S_S512 (constant S_ .f32 0x3F800000#32)))))

/-- The head: 1 / (1 + exp (-(max ([emb, sc] W3 + b3, 0) W4 + b4))), biases as rows. -/
def head (emb : CF S512x64) (sc : CF S512x2) (w3 : CF S66x128) (b3r : CF S1x128) (w4 : CF S128x1) (b4r : CF S1x1) :
    CF S512x1 :=
  Host.divf (broadcastInDim S512x1 ![] bcast_S_S512x1 (constant S_ .f32 0x3F800000#32))
    (addf (broadcastInDim S512x1 ![] bcast_S_S512x1 (constant S_ .f32 0x3F800000#32))
      (Host.exp (Host.negf (addf
        (Host.dotGeneral dot_S512x128_S128x1_S512x1_1_0_0_1_n_n none
          (maximumf (addf
              (Host.dotGeneral dot_S512x66_S66x128_S512x128_1_0_0_1_n_n none
                (concatenate S512x66 1 [⟨S512x64, emb⟩, ⟨S512x2, sc⟩] concatenates_S512x64_S512x2_S512x66_d1) w3)
              (broadcastInDim S512x128 ![0, 1] bcast_S1x128_S512x128_0_1 b3r))
            (broadcastInDim S512x128 ![] bcast_S_S512x128 (constant S_ .f32 0x00000000#32))) w4)
        (broadcastInDim S512x1 ![0, 1] bcast_S1x1_S512x1_0_1 b4r)))))

/-- Layer one as a function of the arguments. -/
def layer1 (x : CF S100000x256) (ei : CI S2x1600000) (W1 : CF S256x128) (b1 : CF S128) : CF S100000x128 :=
  post1 (agg128 (lin1 x W1) (src ei) (dst ei) (norm (src ei) (dst ei))) (lin1 x W1) (nodeCol (selfTerm (dst ei))) (row128 b1)
/-- Layer two as a function of layer one's result. -/
def layer2 (h : CF S100000x128) (ei : CI S2x1600000) (W2 : CF S128x64) (b2 : CF S64) : CF S100000x64 :=
  post2 (agg64 (lin2 h W2) (src ei) (dst ei) (norm (src ei) (dst ei))) (lin2 h W2) (nodeCol (selfTerm (dst ei))) (row64 b2)

/-- The whole network. -/
def net (x : CF S100000x256) (ei : CI S2x1600000) (b : CI S100000) (sc : CF S512x2) (W1 : CF S256x128) (b1 : CF S128)
    (W2 : CF S128x64) (b2 : CF S64) (W3 : CF S66x128) (b3 : CF S128) (W4 : CF S128x1) (b4 : CF S1) : CF S512x1 :=
  head (pool (layer2 (layer1 x ei W1 b1) ei W2 b2) b) sc W3 (row128 b3) W4 (row1 b4)

end Cert.Gcn

end
-- ==== Proof.Layout.lean ====
/-
  A vector read as a one-column or a one-row matrix: the reshape and the broadcast along the new unit axis
  are the same array.  Entry (i, 0) of either column form of v is v i, entry (0, j) of either row form is v j.
-/
import Idealize.ShloMosaic.Lib.Pipeline.Value
import Idealize.ShloMosaic.Lib.ValueIdx

noncomputable section

namespace Cert.Gcn.Layout

open Idealize.ShloMosaic Idealize.ShloMosaic.ValueIdx

variable {α : Type}

/-- [n] as [n, 1]: the reshape is the broadcast along axis 0. -/
theorem col_cast {n : Nat} (v : (⟨1, ![n]⟩ : Shape).Idx → α) (h : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ v h = broadcastInDim ⟨2, ![n, 1]⟩ ![0] hb v := by
  funext j
  have hj1 : (j 1).val = 0 := by have := (j 1).isLt; simp at this; omega
  have hj0 : (j 0).val < n := (j 0).isLt
  rw [shapeCast_apply v h j (ix1 (⟨(j 0).val, hj0⟩ : Fin n)) (by
        rw [Shape.rowMajor_val_one, Shape.rowMajor_val_two]
        show (j 0).val = (j 0).val * 1 + (j 1).val
        omega),
    broadcastInDim_apply ![0] hb v j (ix1 (⟨(j 0).val, hj0⟩ : Fin n)) (by
        intro a
        match a with
        | ⟨0, _⟩ =>
          show (j 0).val = if n = 1 then 0 else (j 0).val
          split
          · omega
          · rfl)]

/-- [n] as [1, n]: the reshape is the broadcast along axis 1. -/
theorem row_cast {n : Nat} (v : (⟨1, ![n]⟩ : Shape).Idx → α) (h : (⟨1, ![n]⟩ : Shape).ShapeCasts ⟨2, ![1, n]⟩)
    (hb : (⟨1, ![n]⟩ : Shape).BroadcastsInDim ⟨2, ![1, n]⟩ ![1]) :
    shapeCast ⟨2, ![1, n]⟩ v h = broadcastInDim ⟨2, ![1, n]⟩ ![1] hb v := by
  funext j
  have hj0 : (j 0).val = 0 := by have := (j 0).isLt; simp at this; omega
  have hj1 : (j 1).val < n := (j 1).isLt
  rw [shapeCast_apply v h j (ix1 (⟨(j 1).val, hj1⟩ : Fin n)) (by
        rw [Shape.rowMajor_val_one, Shape.rowMajor_val_two]
        show (j 1).val = (j 0).val * n + (j 1).val
        rw [hj0]; omega),
    broadcastInDim_apply ![1] hb v j (ix1 (⟨(j 1).val, hj1⟩ : Fin n)) (by
        intro a
        match a with
        | ⟨0, _⟩ =>
          show (j 1).val = if n = 1 then 0 else (j 1).val
          split
          · omega
          · rfl)]

end Cert.Gcn.Layout

end
-- ==== Proof.Stretch.lean ====
/-
  The four stretches of array operations between the launches, each read at the buffers later steps use, from
  any contents U of the buffers when the stretch starts.  A stretch leaves a buffer it does not write as it found
  it; a buffer it writes holds the stretch's operations composed, which are the stages of the network: the edge
  list's two rows, the edge weights, the self weights, the bias rows, the weighted messages summed into their
  targets, and the per-graph mean.
-/
import proofs.«108938_j82154134438094_1_alg».proof.Proof.Gen.KernelIdeal.Launch
import proofs.«108938_j82154134438094_1_alg».proof.Proof.Spec
import Idealize.ShloMosaic.Lib.StableHlo.Run

set_option maxRecDepth 16384

noncomputable section

namespace Cert.KernelIdeal.Stretch

open Idealize.ShloMosaic Idealize.ShloMosaic.TcCoe Idealize.ShloMosaic.StableHlo
open Cert.KernelIdeal Cert.KernelIdeal.Gen

variable (U : Valuation τ sig (Elt Ideal))

/-! ## Before the first launch -/

theorem a_v1 : after (hostOps0 (F := Ideal)) U (Proc.devRef .tc main_v1) = Cert.Gcn.src (U (Proc.devRef .tc main_arg1)) := by
  after_results_simp <;> rfl
theorem a_v3 : after (hostOps0 (F := Ideal)) U (Proc.devRef .tc main_v3) = Cert.Gcn.dst (U (Proc.devRef .tc main_arg1)) := by
  after_results_simp <;> rfl
theorem a_v25 : after (hostOps0 (F := Ideal)) U (Proc.devRef .tc main_v25)
    = Cert.Gcn.norm (Cert.Gcn.src (U (Proc.devRef .tc main_arg1))) (Cert.Gcn.dst (U (Proc.devRef .tc main_arg1))) := by
  after_results_simp <;> rfl
theorem a_v27 : after (hostOps0 (F := Ideal)) U (Proc.devRef .tc main_v27)
    = shapeCast S100000x1 (Cert.Gcn.selfTerm (Cert.Gcn.dst (U (Proc.devRef .tc main_arg1)))) shapeCasts_S100000_S100000x1 := by
  after_results_simp <;> rfl
theorem a_v28 : after (hostOps0 (F := Ideal)) U (Proc.devRef .tc main_v28) = shapeCast S1x128 (U (Proc.devRef .tc main_arg5)) shapeCasts_S128_S1x128 := by
  after_results_simp <;> rfl
theorem a_v29 : after (hostOps0 (F := Ideal)) U (Proc.devRef .tc main_v29) = shapeCast S1x64 (U (Proc.devRef .tc main_arg7)) shapeCasts_S64_S1x64 := by
  after_results_simp <;> rfl
theorem a_arg0 : after (hostOps0 (F := Ideal)) U (Proc.devRef .tc main_arg0) = U (Proc.devRef .tc main_arg0) := by
  after_results_simp
theorem a_arg4 : after (hostOps0 (F := Ideal)) U (Proc.devRef .tc main_arg4) = U (Proc.devRef .tc main_arg4) := by
  after_results_simp
theorem a_arg2 : after (hostOps0 (F := Ideal)) U (Proc.devRef .tc main_arg2) = U (Proc.devRef .tc main_arg2) := by
  after_results_simp
theorem a_arg3 : after (hostOps0 (F := Ideal)) U (Proc.devRef .tc main_arg3) = U (Proc.devRef .tc main_arg3) := by
  after_results_simp
theorem a_arg6 : after (hostOps0 (F := Ideal)) U (Proc.devRef .tc main_arg6) = U (Proc.devRef .tc main_arg6) := by
  after_results_simp
theorem a_arg8 : after (hostOps0 (F := Ideal)) U (Proc.devRef .tc main_arg8) = U (Proc.devRef .tc main_arg8) := by
  after_results_simp
theorem a_arg9 : after (hostOps0 (F := Ideal)) U (Proc.devRef .tc main_arg9) = U (Proc.devRef .tc main_arg9) := by
  after_results_simp
theorem a_arg10 : after (hostOps0 (F := Ideal)) U (Proc.devRef .tc main_arg10) = U (Proc.devRef .tc main_arg10) := by
  after_results_simp
theorem a_arg11 : after (hostOps0 (F := Ideal)) U (Proc.devRef .tc main_arg11) = U (Proc.devRef .tc main_arg11) := by
  after_results_simp

/-! ## Between the first and the second launch -/

theorem b_v43 : after (hostOps1 (F := Ideal)) U (Proc.devRef .tc main_v43)
    = Cert.Gcn.agg128 (U (Proc.devRef .tc main_v30)) (U (Proc.devRef .tc main_v1)) (U (Proc.devRef .tc main_v3)) (U (Proc.devRef .tc main_v25)) := by
  after_results_simp <;> rfl
theorem b_v30 : after (hostOps1 (F := Ideal)) U (Proc.devRef .tc main_v30) = U (Proc.devRef .tc main_v30) := by
  after_results_simp
theorem b_v27 : after (hostOps1 (F := Ideal)) U (Proc.devRef .tc main_v27) = U (Proc.devRef .tc main_v27) := by
  after_results_simp
theorem b_v28 : after (hostOps1 (F := Ideal)) U (Proc.devRef .tc main_v28) = U (Proc.devRef .tc main_v28) := by
  after_results_simp
theorem b_v1 : after (hostOps1 (F := Ideal)) U (Proc.devRef .tc main_v1) = U (Proc.devRef .tc main_v1) := by
  after_results_simp
theorem b_v3 : after (hostOps1 (F := Ideal)) U (Proc.devRef .tc main_v3) = U (Proc.devRef .tc main_v3) := by
  after_results_simp
theorem b_v25 : after (hostOps1 (F := Ideal)) U (Proc.devRef .tc main_v25) = U (Proc.devRef .tc main_v25) := by
  after_results_simp
theorem b_v29 : after (hostOps1 (F := Ideal)) U (Proc.devRef .tc main_v29) = U (Proc.devRef .tc main_v29) := by
  after_results_simp
theorem b_arg2 : after (hostOps1 (F := Ideal)) U (Proc.devRef .tc main_arg2) = U (Proc.devRef .tc main_arg2) := by
  after_results_simp
theorem b_arg3 : after (hostOps1 (F := Ideal)) U (Proc.devRef .tc main_arg3) = U (Proc.devRef .tc main_arg3) := by
  after_results_simp
theorem b_arg6 : after (hostOps1 (F := Ideal)) U (Proc.devRef .tc main_arg6) = U (Proc.devRef .tc main_arg6) := by
  after_results_simp
theorem b_arg8 : after (hostOps1 (F := Ideal)) U (Proc.devRef .tc main_arg8) = U (Proc.devRef .tc main_arg8) := by
  after_results_simp
theorem b_arg9 : after (hostOps1 (F := Ideal)) U (Proc.devRef .tc main_arg9) = U (Proc.devRef .tc main_arg9) := by
  after_results_simp
theorem b_arg10 : after (hostOps1 (F := Ideal)) U (Proc.devRef .tc main_arg10) = U (Proc.devRef .tc main_arg10) := by
  after_results_simp
theorem b_arg11 : after (hostOps1 (F := Ideal)) U (Proc.devRef .tc main_arg11) = U (Proc.devRef .tc main_arg11) := by
  after_results_simp

/-! ## Between the third and the fourth launch -/

theorem c_v58 : after (hostOps3 (F := Ideal)) U (Proc.devRef .tc main_v58)
    = Cert.Gcn.agg64 (U (Proc.devRef .tc main_v45)) (U (Proc.devRef .tc main_v1)) (U (Proc.devRef .tc main_v3)) (U (Proc.devRef .tc main_v25)) := by
  after_results_simp <;> rfl
theorem c_v45 : after (hostOps3 (F := Ideal)) U (Proc.devRef .tc main_v45) = U (Proc.devRef .tc main_v45) := by
  after_results_simp
theorem c_v27 : after (hostOps3 (F := Ideal)) U (Proc.devRef .tc main_v27) = U (Proc.devRef .tc main_v27) := by
  after_results_simp
theorem c_v29 : after (hostOps3 (F := Ideal)) U (Proc.devRef .tc main_v29) = U (Proc.devRef .tc main_v29) := by
  after_results_simp
theorem c_arg2 : after (hostOps3 (F := Ideal)) U (Proc.devRef .tc main_arg2) = U (Proc.devRef .tc main_arg2) := by
  after_results_simp
theorem c_arg3 : after (hostOps3 (F := Ideal)) U (Proc.devRef .tc main_arg3) = U (Proc.devRef .tc main_arg3) := by
  after_results_simp
theorem c_arg8 : after (hostOps3 (F := Ideal)) U (Proc.devRef .tc main_arg8) = U (Proc.devRef .tc main_arg8) := by
  after_results_simp
theorem c_arg9 : after (hostOps3 (F := Ideal)) U (Proc.devRef .tc main_arg9) = U (Proc.devRef .tc main_arg9) := by
  after_results_simp
theorem c_arg10 : after (hostOps3 (F := Ideal)) U (Proc.devRef .tc main_arg10) = U (Proc.devRef .tc main_arg10) := by
  after_results_simp
theorem c_arg11 : after (hostOps3 (F := Ideal)) U (Proc.devRef .tc main_arg11) = U (Proc.devRef .tc main_arg11) := by
  after_results_simp

/-! ## Before the last launch -/

theorem d_v71 : after (hostOps4 (F := Ideal)) U (Proc.devRef .tc main_v71) = Cert.Gcn.pool (U (Proc.devRef .tc main_v59)) (U (Proc.devRef .tc main_arg2)) := by
  after_results_simp <;> rfl
theorem d_v72 : after (hostOps4 (F := Ideal)) U (Proc.devRef .tc main_v72) = shapeCast S1x128 (U (Proc.devRef .tc main_arg9)) shapeCasts_S128_S1x128 := by
  after_results_simp <;> rfl
theorem d_v73 : after (hostOps4 (F := Ideal)) U (Proc.devRef .tc main_v73) = shapeCast S1x1 (U (Proc.devRef .tc main_arg11)) shapeCasts_S1_S1x1 := by
  after_results_simp <;> rfl
theorem d_arg3 : after (hostOps4 (F := Ideal)) U (Proc.devRef .tc main_arg3) = U (Proc.devRef .tc main_arg3) := by
  after_results_simp
theorem d_arg8 : after (hostOps4 (F := Ideal)) U (Proc.devRef .tc main_arg8) = U (Proc.devRef .tc main_arg8) := by
  after_results_simp
theorem d_arg10 : after (hostOps4 (F := Ideal)) U (Proc.devRef .tc main_arg10) = U (Proc.devRef .tc main_arg10) := by
  after_results_simp

end Cert.KernelIdeal.Stretch

end
-- ==== Proof.Proj1.lean ====
/-
  The first dense projection, block by block.  Grid point t of the first launch multiplies rows
  5000 t … 5000 t + 4999 of x by the whole of W1; entry (p, q) of that block product is
  Σ_k x[5000 t + p, k] · W1[k, q], which is entry (5000 t + p, q) of the whole product x W1.  The twenty
  blocks tile the 100000 rows, so the array the launch leaves is x W1.
-/
import proofs.«108938_j82154134438094_1_alg».proof.Proof.Gen.KernelIdeal.Frame
import proofs.«108938_j82154134438094_1_alg».proof.Proof.Gen.ReferenceIdeal.Read
import proofs.«108938_j82154134438094_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Proj1

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The dimension numbers of one block product. -/
abbrev D : DotDims S5000x256 S256x128 S5000x128 := dot_S5000x256_S256x128_S5000x128_1_0_0_1_n_n

theorem lhs_0 (i : S5000x128.Idx) (q : D.contr.Idx) : (D.lhsIdx i q 0).val = (i 0).val := by
  unfold DotDims.lhsIdx
  rw [dif_neg (show ¬(0 : Fin S5000x256.rank) ∈ D.lhsBatch by decide), dif_pos (show (0 : Fin S5000x256.rank) ∈ D.lhsNonContracting by decide)]
  rfl
theorem lhs_1 (i : S5000x128.Idx) (q : D.contr.Idx) : (D.lhsIdx i q 1).val = (q ⟨0, by decide⟩).val :=
  D.lhsIdx_val_of_single rfl i q
theorem rhs_0 (i : S5000x128.Idx) (q : D.contr.Idx) : (D.rhsIdx i q 0).val = (q ⟨0, by decide⟩).val :=
  D.rhsIdx_val_of_single rfl i q
theorem rhs_1 (i : S5000x128.Idx) (q : D.contr.Idx) : (D.rhsIdx i q 1).val = (i 1).val := by
  unfold DotDims.rhsIdx
  rw [dif_neg (show ¬(1 : Fin S256x128.rank) ∈ D.rhsBatch by decide), dif_pos (show (1 : Fin S256x128.rank) ∈ D.rhsNonContracting by decide)]
  rfl

/-- Entry (p, q) of a block product is the sum over k of row p of the left block times column q of the right one. -/
theorem pay_apply (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  refine (Ideal.matmul_constant_zero_apply D none _ _ (ix2 p q)).trans ?_
  rw [← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 256 rfl rfl).symm k) = ix2 k q := funext fun a => Fin.ext (by
    match a with
    | ⟨0, _⟩ => exact (rhs_0 _ _).trans hk
    | ⟨1, _⟩ => exact rhs_1 _ _)
  rw [el, er]
  rfl

/-- A block product whose left block is rows 5000 r … of A and whose right block is B is those rows of A B. -/
theorem block_eq (A : Cert.Gcn.CF Cert.ReferenceIdeal.S100000x256) (B : Cert.Gcn.CF Cert.ReferenceIdeal.S256x128)
    (r : Nat) (hr : r < 20) (x0 : Vec Ideal S5000x256 .f32) (x1 : Vec Ideal S256x128 .f32)
    (h0 : ∀ (p : Fin 5000) (k : Fin 256), x0 (ix2 p k) = A (ix2 (⟨r * 5000 + p.val, by omega⟩ : Fin 100000) k))
    (h1 : ∀ (k : Fin 256) (q : Fin 128), x1 (ix2 k q) = B (ix2 k q)) (p : Fin 5000) (q : Fin 128) :
    k0_pay1 (F := Ideal) x0 x1 (ix2 p q) = Cert.Gcn.lin1 A B (ix2 (⟨r * 5000 + p.val, by omega⟩ : Fin 100000) q) := by
  rw [pay_apply]
  refine ((Cert.ReferenceIdeal.Read.val_main_v4_apply A B (ix2 (⟨r * 5000 + p.val, by omega⟩ : Fin 100000) q)).trans ?_).symm
  refine Finset.sum_congr rfl fun k _ => ?_
  have el : Cert.ReferenceIdeal.Read.lidx_main_v4 (ix2 (⟨r * 5000 + p.val, by omega⟩ : Fin 100000) q) k
      = ix2 (⟨r * 5000 + p.val, by omega⟩ : Fin 100000) k :=
    funext fun a => by match a with | ⟨0, _⟩ => rfl | ⟨1, _⟩ => rfl
  have er : Cert.ReferenceIdeal.Read.ridx_main_v4 (ix2 (⟨r * 5000 + p.val, by omega⟩ : Fin 100000) q) k = ix2 k q :=
    funext fun a => by match a with | ⟨0, _⟩ => rfl | ⟨1, _⟩ => rfl
  rw [el, er, h0, h1]

/-- The printed index maps over the grid: the left and the result windows move one block of rows per point, the right
    window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x W1. -/
theorem flushed_eq (c : Dev nD) (t : Fin cfg0.N) :
    (dat0 V c).flushed 2 t = ((cfg0.win 2).blk t).view.read (Elt Ideal) (Cert.Gcn.lin1 (V c main_arg0) (V c main_arg4)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x128) hz]
  obtain ⟨e0, e1, e2, e3, e4, e5⟩ := idx_facts t
  have ht : t.val < 20 := lt_of_lt_of_eq t.isLt N_0
  funext j
  obtain ⟨p, q, rfl⟩ : ∃ (p : Fin 5000) (q : Fin 128), j = ix2 p q := ⟨j 0, j 1, eq_ix2 j⟩
  refine (block_eq (V c main_arg0) (V c main_arg4) t.val ht (iblk0 V c 0 t) (iblk0 V c 1 t) ?_ ?_ p q).trans ?_
  · intro p k
    show V c main_arg0 (((cfg0.win 0).blk t).view.emb (ix2 p k)) = V c main_arg0 _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 256 + 1 * k.val = k.val; omega
  · intro k q
    show V c main_arg4 (((cfg0.win 1).blk t).view.emb (ix2 k q)) = V c main_arg4 _
    refine congrArg (V c main_arg4) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show Cert.Gcn.lin1 (V c main_arg0) (V c main_arg4) _ = Cert.Gcn.lin1 (V c main_arg0) (V c main_arg4) (((cfg0.win 2).blk t).view.emb (ix2 p q))
    refine congrArg (Cert.Gcn.lin1 (V c main_arg0) (V c main_arg4)) (funext fun a => Fin.ext ?_)
    match a with
    | ⟨0, _⟩ => show t.val * 5000 + p.val = win0_2.index t (0 : Fin 2) * 5000 + 1 * p.val; omega
    | ⟨1, _⟩ => show q.val = win0_2.index t (1 : Fin 2) * 128 + 1 * q.val; omega

/-- An index of the result is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row r of the result lies in the block of point r / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have htl : (i 0).val / 5000 < grid0.N := by rw [hN]; omega
  obtain ⟨e0, e1, e2, e3, e4, e5⟩ := idx_facts ⟨(i 0).val / 5000, htl⟩
  refine ⟨⟨(i 0).val / 5000, htl⟩, flush0_2 _, ?_⟩
  rw [mem_blk]
  intro a
  match a with
  | ⟨0, _⟩ =>
    show win0_2.index ⟨(i 0).val / 5000, htl⟩ (0 : Fin 2) * 5000 ≤ (i 0).val ∧ (i 0).val < win0_2.index ⟨(i 0).val / 5000, htl⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, htl⟩ (1 : Fin 2) * 128 ≤ (i 1).val ∧ (i 1).val < win0_2.index ⟨(i 0).val / 5000, htl⟩ (1 : Fin 2) * 128 + 128
    rw [e5]
    omega

/-- The array the first launch leaves is x W1 of the arrays it found. -/
theorem value (c : Dev nD) : (dat0 V c).arrAt 2 cfg0.N = Cert.Gcn.lin1 (V c main_arg0) (V c main_arg4) :=
  (dat0 V c).arrAt_eq_of_cover 2 _ (fun t _ => flushed_eq V c t) cover

end Cert.KernelIdeal.Proj1

end
-- ==== Proof.Proj2.lean ====
/-
  The second dense projection, block by block.  Grid point t of the third launch multiplies rows
  5000 t … 5000 t + 4999 of the first layer's result h by the whole of W2; entry (p, q) of that block product is
  Σ_k h[5000 t + p, k] · W2[k, q], which is entry (5000 t + p, q) of the whole product h W2.  The twenty
  blocks tile the 100000 rows, so the array the launch leaves is h W2.
-/
import proofs.«108938_j82154134438094_1_alg».proof.Proof.Gen.KernelIdeal.Frame
import proofs.«108938_j82154134438094_1_alg».proof.Proof.Gen.ReferenceIdeal.Read
import proofs.«108938_j82154134438094_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Proj2

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The dimension numbers of one block product. -/
abbrev D : DotDims S5000x128 S128x64 S5000x64 := dot_S5000x128_S128x64_S5000x64_1_0_0_1_n_n

theorem lhs_0 (i : S5000x64.Idx) (q : D.contr.Idx) : (D.lhsIdx i q 0).val = (i 0).val := by
  unfold DotDims.lhsIdx
  rw [dif_neg (show ¬(0 : Fin S5000x128.rank) ∈ D.lhsBatch by decide), dif_pos (show (0 : Fin S5000x128.rank) ∈ D.lhsNonContracting by decide)]
  rfl
theorem lhs_1 (i : S5000x64.Idx) (q : D.contr.Idx) : (D.lhsIdx i q 1).val = (q ⟨0, by decide⟩).val :=
  D.lhsIdx_val_of_single rfl i q
theorem rhs_0 (i : S5000x64.Idx) (q : D.contr.Idx) : (D.rhsIdx i q 0).val = (q ⟨0, by decide⟩).val :=
  D.rhsIdx_val_of_single rfl i q
theorem rhs_1 (i : S5000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- Entry (p, q) of a block product is the sum over k of row p of the left block times column q of the right one. -/
theorem pay_apply (x0 : Vec Ideal S5000x128 .f32) (x1 : Vec Ideal S128x64 .f32) (p : Fin 5000) (q : Fin 64) :
    k2_pay1 (F := Ideal) x0 x1 (ix2 p q) = ∑ k : Fin 128, x0 (ix2 p k) * x1 (ix2 k q) := by
  unfold k2_pay1
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_0 _ _
    | ⟨1, _⟩ => exact (lhs_1 _ _).trans hk)
  have er : D.rhsIdx (ix2 p q) ((contrEquiv1 D 128 rfl rfl).symm k) = ix2 k q := funext fun a => Fin.ext (by
    match a with
    | ⟨0, _⟩ => exact (rhs_0 _ _).trans hk
    | ⟨1, _⟩ => exact rhs_1 _ _)
  rw [el, er]
  show (shapeCast S5000x128 x0 shapeCasts_S5000x128_S5000x128) (ix2 p k) * x1 (ix2 k q) = _
  rw [shapeCast_self]

/-- The dimension numbers of the whole product. -/
abbrev DW : DotDims Cert.ReferenceIdeal.S100000x128 Cert.ReferenceIdeal.S128x64 Cert.ReferenceIdeal.S100000x64 :=
  Cert.ReferenceIdeal.dot_S100000x128_S128x64_S100000x64_1_0_0_1_n_n

/-- Entry i of the whole product h W2 is the sum over k of row i 0 of h times column i 1 of W2. -/
theorem lin2_apply (A : Cert.Gcn.CF Cert.ReferenceIdeal.S100000x128) (B : Cert.Gcn.CF Cert.ReferenceIdeal.S128x64)
    (i : Cert.ReferenceIdeal.S100000x64.Idx) :
    Cert.Gcn.lin2 A B i = ∑ k : Fin 128, A (Cert.ReferenceIdeal.Read.lidx_main_v49 i k) * B (Cert.ReferenceIdeal.Read.ridx_main_v49 i k) := by
  unfold Cert.Gcn.lin2
  simp only [Host.dotGeneral]
  rw [Ideal.dotGeneral_apply, ← Equiv.sum_comp (contrEquiv1 DW 128 rfl rfl).symm]
  refine Finset.sum_congr rfl fun k _ => ?_
  have hk := contrEquiv1_symm_val DW 128 rfl rfl k
  have el : DW.lhsIdx i ((contrEquiv1 DW 128 rfl rfl).symm k) = Cert.ReferenceIdeal.Read.lidx_main_v49 i k := funext fun a => Fin.ext (by
    match a with
    | ⟨0, _⟩ => exact Cert.ReferenceIdeal.Read.lhs_main_v49_0 _ _
    | ⟨1, _⟩ => exact (Cert.ReferenceIdeal.Read.lhs_main_v49_1 _ _).trans hk)
  have er : DW.rhsIdx i ((contrEquiv1 DW 128 rfl rfl).symm k) = Cert.ReferenceIdeal.Read.ridx_main_v49 i k := funext fun a => Fin.ext (by
    match a with
    | ⟨0, _⟩ => exact (Cert.ReferenceIdeal.Read.rhs_main_v49_0 _ _).trans hk
    | ⟨1, _⟩ => exact Cert.ReferenceIdeal.Read.rhs_main_v49_1 _ _)
  rw [el, er]

/-- A block product whose left block is rows 5000 r … of A and whose right block is B is those rows of A B. -/
theorem block_eq (A : Cert.Gcn.CF Cert.ReferenceIdeal.S100000x128) (B : Cert.Gcn.CF Cert.ReferenceIdeal.S128x64)
    (r : Nat) (hr : r < 20) (x0 : Vec Ideal S5000x128 .f32) (x1 : Vec Ideal S128x64 .f32)
    (h0 : ∀ (p : Fin 5000) (k : Fin 128), x0 (ix2 p k) = A (ix2 (⟨r * 5000 + p.val, by omega⟩ : Fin 100000) k))
    (h1 : ∀ (k : Fin 128) (q : Fin 64), x1 (ix2 k q) = B (ix2 k q)) (p : Fin 5000) (q : Fin 64) :
    k2_pay1 (F := Ideal) x0 x1 (ix2 p q) = Cert.Gcn.lin2 A B (ix2 (⟨r * 5000 + p.val, by omega⟩ : Fin 100000) q) := by
  rw [pay_apply]
  refine ((lin2_apply A B (ix2 (⟨r * 5000 + p.val, by omega⟩ : Fin 100000) q)).trans ?_).symm
  refine Finset.sum_congr rfl fun k _ => ?_
  have el : Cert.ReferenceIdeal.Read.lidx_main_v49 (ix2 (⟨r * 5000 + p.val, by omega⟩ : Fin 100000) q) k
      = ix2 (⟨r * 5000 + p.val, by omega⟩ : Fin 100000) k :=
    funext fun a => by match a with | ⟨0, _⟩ => rfl | ⟨1, _⟩ => rfl
  have er : Cert.ReferenceIdeal.Read.ridx_main_v49 (ix2 (⟨r * 5000 + p.val, by omega⟩ : Fin 100000) q) k = ix2 k q :=
    funext fun a => by match a with | ⟨0, _⟩ => rfl | ⟨1, _⟩ => rfl
  rw [el, er, h0, h1]

/-- The printed index maps over the grid: the left and the result windows move one block of rows per point, the right
    window stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of h W2. -/
theorem flushed_eq (c : Dev nD) (t : Fin cfg2.N) :
    (dat2 V c).flushed 2 t = ((cfg2.win 2).blk t).view.read (Elt Ideal) (Cert.Gcn.lin2 (V c main_v44) (V c main_arg6)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x64) hz]
  obtain ⟨e0, e1, e2, e3, e4, e5⟩ := idx_facts t
  have ht : t.val < 20 := lt_of_lt_of_eq t.isLt N_2
  funext j
  obtain ⟨p, q, rfl⟩ : ∃ (p : Fin 5000) (q : Fin 64), j = ix2 p q := ⟨j 0, j 1, eq_ix2 j⟩
  refine (block_eq (V c main_v44) (V c main_arg6) t.val ht (iblk2 V c 0 t) (iblk2 V c 1 t) ?_ ?_ p q).trans ?_
  · intro p k
    show V c main_v44 (((cfg2.win 0).blk t).view.emb (ix2 p k)) = V c main_v44 _
    refine congrArg (V c main_v44) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  · intro k q
    show V c main_arg6 (((cfg2.win 1).blk t).view.emb (ix2 k q)) = V c main_arg6 _
    refine congrArg (V c main_arg6) (funext fun a => Fin.ext ?_)
    match a with
    | ⟨0, _⟩ => show win2_1.index t (0 : Fin 2) * 128 + 1 * k.val = k.val; omega
    | ⟨1, _⟩ => show win2_1.index t (1 : Fin 2) * 64 + 1 * q.val = q.val; omega
  · show Cert.Gcn.lin2 (V c main_v44) (V c main_arg6) _ = Cert.Gcn.lin2 (V c main_v44) (V c main_arg6) (((cfg2.win 2).blk t).view.emb (ix2 p q))
    refine congrArg (Cert.Gcn.lin2 (V c main_v44) (V c main_arg6)) (funext fun a => Fin.ext ?_)
    match a with
    | ⟨0, _⟩ => show t.val * 5000 + p.val = win2_2.index t (0 : Fin 2) * 5000 + 1 * p.val; omega
    | ⟨1, _⟩ => show q.val = win2_2.index t (1 : Fin 2) * 64 + 1 * q.val; omega

/-- An index of the result is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Row r of the result lies in the block of point r / 5000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  have htl : (i 0).val / 5000 < grid2.N := by rw [hN]; omega
  obtain ⟨e0, e1, e2, e3, e4, e5⟩ := idx_facts ⟨(i 0).val / 5000, htl⟩
  refine ⟨⟨(i 0).val / 5000, htl⟩, flush2_2 _, ?_⟩
  rw [mem_blk]
  intro a
  match a with
  | ⟨0, _⟩ =>
    show win2_2.index ⟨(i 0).val / 5000, htl⟩ (0 : Fin 2) * 5000 ≤ (i 0).val ∧ (i 0).val < win2_2.index ⟨(i 0).val / 5000, htl⟩ (0 : Fin 2) * 5000 + 5000
    rw [e4]
    show (i 0).val / 5000 * 5000 ≤ (i 0).val ∧ (i 0).val < (i 0).val / 5000 * 5000 + 5000
    omega
  | ⟨1, _⟩ =>
    show win2_2.index ⟨(i 0).val / 5000, htl⟩ (1 : Fin 2) * 64 ≤ (i 1).val ∧ (i 1).val < win2_2.index ⟨(i 0).val / 5000, htl⟩ (1 : Fin 2) * 64 + 64
    rw [e5]
    omega

/-- The array the third launch leaves is h W2 of the arrays it found. -/
theorem value (c : Dev nD) : (dat2 V c).arrAt 2 cfg2.N = Cert.Gcn.lin2 (V c main_v44) (V c main_arg6) :=
  (dat2 V c).arrAt_eq_of_cover 2 _ (fun t _ => flushed_eq V c t) cover

end Cert.KernelIdeal.Proj2

end
-- ==== Proof.Post1.lean ====
/-
  Layer one's closing stage, block by block.  Grid point t of the second launch holds rows
  5000 t … 5000 t + 4999 of the sum over edges and of the projected features, the same rows of the
  one-column array of self weights, and the whole one-row bias; entry (p, q) of what it stores is
  max (agg[p, q] + h[p, q] · self[p, 0] + bias[0, q], 0) over those blocks, which is entry (5000 t + p, q)
  of the whole-array stage: an output entry depends only on the entries of its own row of agg and h, on its
  row's self weight and on its column's bias.  The twenty blocks tile the 100000 rows, so the array the
  launch leaves is the whole-array stage of the arrays it found.
-/
import proofs.«108938_j82154134438094_1_alg».proof.Proof.Gen.KernelIdeal.Frame
import proofs.«108938_j82154134438094_1_alg».proof.Proof.Gen.ReferenceIdeal.Read
import proofs.«108938_j82154134438094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Post1

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- A one-column array broadcast over the columns reads, at (p, c), the column's entry p. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what a point stores, over its four blocks. -/
theorem pay_apply (x0 x1 : Vec Ideal S5000x128 .f32) (x2 : Vec Ideal S5000x1 .f32) (x3 : Vec Ideal S1x128 .f32) (p : Fin 5000) (q : Fin 128) :
    k1_pay1 (F := Ideal) x0 x1 x2 x3 (ix2 p q)
      = max (x0 (ix2 p q) + x1 (ix2 p q) * x2 (ix2 p (0 : Fin 1)) + x3 (ix2 (0 : Fin 1) q)) (Ideal.ofBits .f32 0x00000000#32) := by
  have e0 : shapeCast S5000x128 x0 shapeCasts_S5000x128_S5000x128 = x0 := shapeCast_self x0 _
  have e1 : shapeCast S5000x128 x1 shapeCasts_S5000x128_S5000x128 = x1 := shapeCast_self x1 _
  have e2 : shapeCast S5000x1 x2 shapeCasts_S5000x1_S5000x1 = x2 := shapeCast_self x2 _
  have e3 : shapeCast S1x128 x3 shapeCasts_S1x128_S1x128 = x3 := shapeCast_self x3 _
  have b2 : broadcastTo S5000x128 x2 broadcasts_S5000x1_S5000x128 (ix2 p q) = x2 (ix2 p (0 : Fin 1)) := bcast_col x2 _ p q
  have b3 : broadcastTo S5000x128 x3 broadcasts_S1x128_S5000x128 (ix2 p q) = x3 (ix2 (0 : Fin 1) q) := broadcastTo_1b_ab_apply x3 _ p q
  unfold k1_pay1
  show max (shapeCast S5000x128 x0 shapeCasts_S5000x128_S5000x128 (ix2 p q)
        + shapeCast S5000x128 x1 shapeCasts_S5000x128_S5000x128 (ix2 p q)
          * broadcastTo S5000x128 (shapeCast S5000x1 x2 shapeCasts_S5000x1_S5000x1) broadcasts_S5000x1_S5000x128 (ix2 p q)
        + broadcastTo S5000x128 (shapeCast S1x128 x3 shapeCasts_S1x128_S1x128) broadcasts_S1x128_S5000x128 (ix2 p q))
      (Ideal.ofBits .f32 0x00000000#32) = _
  rw [e0, e1, e2, e3, b2, b3]

/-- Layer one's closing stage at entry (r, q): the sum over edges plus the node's own row scaled by its
    weight plus the bias, cut off below at zero. -/
theorem post1_apply (agg h : Cert.Gcn.CF Cert.ReferenceIdeal.S100000x128) (selfc : Cert.Gcn.CF Cert.ReferenceIdeal.S100000x1)
    (biasr : Cert.Gcn.CF Cert.ReferenceIdeal.S1x128) (r : Fin 100000) (q : Fin 128) :
    Cert.Gcn.post1 agg h selfc biasr (ix2 r q)
      = max (agg (ix2 r q) + h (ix2 r q) * selfc (ix2 r (0 : Fin 1)) + biasr (ix2 (0 : Fin 1) q)) (Ideal.ofBits .f32 0x00000000#32) := by
  have bs : broadcastInDim Cert.ReferenceIdeal.S100000x128 ![0, 1] Cert.ReferenceIdeal.Gen.bcast_S100000x1_S100000x128_0_1 selfc (ix2 r q)
      = selfc (ix2 r (0 : Fin 1)) :=
    broadcastInDim_apply _ _ selfc (ix2 r q) (ix2 r (0 : Fin 1)) (fun a => by
      match a with
      | ⟨0, _⟩ => rfl
      | ⟨1, _⟩ => rfl)
  have bb : broadcastInDim Cert.ReferenceIdeal.S100000x128 ![0, 1] Cert.ReferenceIdeal.Gen.bcast_S1x128_S100000x128_0_1 biasr (ix2 r q)
      = biasr (ix2 (0 : Fin 1) q) :=
    broadcastInDim_apply _ _ biasr (ix2 r q) (ix2 (0 : Fin 1) q) (fun a => by
      match a with
      | ⟨0, _⟩ => rfl
      | ⟨1, _⟩ => rfl)
  have bz : broadcastInDim Cert.ReferenceIdeal.S100000x128 ![] Cert.ReferenceIdeal.Gen.bcast_S_S100000x128
        (constant (F := Ideal) Cert.ReferenceIdeal.S_ .f32 0x00000000#32) (ix2 r q) = Ideal.ofBits .f32 0x00000000#32 :=
    broadcastInDim_apply _ _ _ (ix2 r q) ix0 (fun a => a.elim0)
  unfold Cert.Gcn.post1
  show max (agg (ix2 r q)
        + h (ix2 r q) * broadcastInDim Cert.ReferenceIdeal.S100000x128 ![0, 1] Cert.ReferenceIdeal.Gen.bcast_S100000x1_S100000x128_0_1 selfc (ix2 r q)
        + broadcastInDim Cert.ReferenceIdeal.S100000x128 ![0, 1] Cert.ReferenceIdeal.Gen.bcast_S1x128_S100000x128_0_1 biasr (ix2 r q))
      (broadcastInDim Cert.ReferenceIdeal.S100000x128 ![] Cert.ReferenceIdeal.Gen.bcast_S_S100000x128
        (constant (F := Ideal) Cert.ReferenceIdeal.S_ .f32 0x00000000#32) (ix2 r q)) = _
  rw [bs, bb, bz]

/-- A point's stored block whose input blocks are rows 5000 r … of agg, of h and of the self column, and the
    whole bias row, is those rows of the whole-array stage. -/
theorem block_eq (agg h : Cert.Gcn.CF Cert.ReferenceIdeal.S100000x128) (selfc : Cert.Gcn.CF Cert.ReferenceIdeal.S100000x1) (biasr : Cert.Gcn.CF Cert.ReferenceIdeal.S1x128)
    (r : Nat) (hr : r < 20) (x0 x1 : Vec Ideal S5000x128 .f32) (x2 : Vec Ideal S5000x1 .f32) (x3 : Vec Ideal S1x128 .f32)
    (h0 : ∀ (p : Fin 5000) (q : Fin 128), x0 (ix2 p q) = agg (ix2 (⟨r * 5000 + p.val, by omega⟩ : Fin 100000) q))
    (h1 : ∀ (p : Fin 5000) (q : Fin 128), x1 (ix2 p q) = h (ix2 (⟨r * 5000 + p.val, by omega⟩ : Fin 100000) q))
    (h2 : ∀ (p : Fin 5000), x2 (ix2 p (0 : Fin 1)) = selfc (ix2 (⟨r * 5000 + p.val, by omega⟩ : Fin 100000) (0 : Fin 1)))
    (h3 : ∀ (q : Fin 128), x3 (ix2 (0 : Fin 1) q) = biasr (ix2 (0 : Fin 1) q)) (p : Fin 5000) (q : Fin 128) :
    k1_pay1 (F := Ideal) x0 x1 x2 x3 (ix2 p q)
      = Cert.Gcn.post1 agg h selfc biasr (ix2 (⟨r * 5000 + p.val, by omega⟩ : Fin 100000) q) := by
  rw [pay_apply, post1_apply, h0, h1, h2, h3]

/-- The printed index maps over the grid: the three row-block windows and the result window move one block of
    rows per point, the bias window stays. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array stage. -/
theorem flushed_eq (c : Dev nD) (t : Fin cfg1.N) :
    (dat1 V c).flushed 4 t = ((cfg1.win 4).blk t).view.read (Elt Ideal)
      (Cert.Gcn.post1 (V c main_v43) (V c main_v30) (V c main_v27) (V c main_v28)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S1x128) hz]
  obtain ⟨e0, e1, e2, e3, e4, e5, e6, e7, e8, e9⟩ := idx_facts t
  have ht : t.val < 20 := lt_of_lt_of_eq t.isLt N_1
  funext j
  obtain ⟨p, q, rfl⟩ : ∃ (p : Fin 5000) (q : Fin 128), j = ix2 p q := ⟨j 0, j 1, eq_ix2 j⟩
  refine (block_eq (V c main_v43) (V c main_v30) (V c main_v27) (V c main_v28) t.val ht
    (iblk1 V c 0 t) (iblk1 V c 1 t) (iblk1 V c 2 t) (iblk1 V c 3 t) ?_ ?_ ?_ ?_ p q).trans ?_
  · intro p q
    show V c main_v43 (((cfg1.win 0).blk t).view.emb (ix2 p q)) = V c main_v43 _
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 128 + 1 * q.val = q.val; omega
  · intro p q
    show V c main_v30 (((cfg1.win 1).blk t).view.emb (ix2 p q)) = V c main_v30 _
    refine congrArg (V c main_v30) (funext fun a => Fin.ext ?_)
    match a with
    | ⟨0, _⟩ => show win1_1.index t (0 : Fin 2) * 5000 + 1 * p.val = t.val * 5000 + p.val; omega
    | ⟨1, _⟩ => show win1_1.index t (1 : Fin 2) * 128 + 1 * q.val = q.val; omega
  · intro p
    show V c main_v27 (((cfg1.win 2).blk t).view.emb (ix2 p (0 : Fin 1))) = V c main_v27 _
    refine congrArg (V c main_v27) (funext fun a => Fin.ext ?_)
    match a with
    | ⟨0, _⟩ => show win1_2.index t (0 : Fin 2) * 5000 + 1 * p.val = t.val * 5000 + p.val; omega
    | ⟨1, _⟩ => show win1_2.index t (1 : Fin 2) * 1 + 1 * 0 = 0; omega
  · intro q
    show V c main_v28 (((cfg1.win 3).blk t).view.emb (ix2 (0 : Fin 1) q)) = V c main_v28 _
    refine congrArg (V c main_v28) (funext fun a => Fin.ext ?_)
    match a with
    | ⟨0, _⟩ => show win1_3.index t (0 : Fin 2) * 1 + 1 * 0 = 0; omega
    | ⟨1, _⟩ => show win1_3.index t (1 : Fin 2) * 128 + 1 * q.val = q.val; omega
  · show Cert.Gcn.post1 (V c main_v43) (V c main_v30) (V c main_v27) (V c main_v28) _
      = Cert.Gcn.post1 (V c main_v43) (V c main_v30) (V c main_v27) (V c main_v28) (((cfg1.win 4).blk t).view.emb (ix2 p q))
    refine congrArg (Cert.Gcn.post1 (V c main_v43) (V c main_v30) (V c main_v27) (V c main_v28)) (funext fun a => Fin.ext ?_)
    match a with
    | ⟨0, _⟩ => show t.val * 5000 + p.val = win1_4.index t (0 : Fin 2) * 5000 + 1 * p.val; omega
    | ⟨1, _⟩ => show q.val = win1_4.index t (1 : Fin 2) * 128 + 1 * q.val; omega

/-- An index of the result is in point t's block iff each coordinate is in the block's range on its axis. -/
theorem mem_blk (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v44).slice (win1_4.rect t)).set ↔ _
  rw [View.set_slice_whole, Rect.mem_set_unit]
  exact Iff.rfl

/-- Row r of the result lies in the block of point r / 5000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 20 := N_1
  have htl : (i 0).val / 5000 < grid1.N := by rw [hN]; omega
  obtain ⟨e0, e1, e2, e3, e4, e5, e6, e7, e8, e9⟩ := idx_facts ⟨(i 0).val / 5000, htl⟩
  refine ⟨⟨(i 0).val / 5000, htl⟩, flush1_4 _, ?_⟩
  rw [mem_blk]
  intro a
  match a with
  | ⟨0, _⟩ =>
    show win1_4.index ⟨(i 0).val / 5000, htl⟩ (0 : Fin 2) * 5000 ≤ (i 0).val
      ∧ (i 0).val < win1_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, htl⟩ (1 : Fin 2) * 128 ≤ (i 1).val
      ∧ (i 1).val < win1_4.index ⟨(i 0).val / 5000, htl⟩ (1 : Fin 2) * 128 + 128
    rw [e9]
    omega

/-- The array the launch leaves is the whole-array stage of the arrays it found. -/
theorem value (c : Dev nD) : (dat1 V c).arrAt 4 cfg1.N
    = Cert.Gcn.post1 (V c main_v43) (V c main_v30) (V c main_v27) (V c main_v28) :=
  (dat1 V c).arrAt_eq_of_cover 4 _ (fun t _ => flushed_eq V c t) cover

end Cert.KernelIdeal.Post1

end
-- ==== Proof.Post2.lean ====
/-
  Layer two's closing stage, block by block.  Grid point t of the fourth launch holds rows
  5000 t … 5000 t + 4999 of the sum over edges and of the projected features (64 columns), the same rows of
  the one-column array of self weights, and the whole one-row bias; entry (p, q) of what it stores is
  agg[p, q] + h[p, q] · self[p, 0] + bias[0, q] over those blocks, which is entry (5000 t + p, q) of the
  whole-array stage: an output entry depends only on the entries of its own row of agg and h, on its row's
  self weight and on its column's bias.  The twenty blocks tile the 100000 rows, so the array the launch
  leaves is the whole-array stage of the arrays it found.
-/
import proofs.«108938_j82154134438094_1_alg».proof.Proof.Gen.KernelIdeal.Frame
import proofs.«108938_j82154134438094_1_alg».proof.Proof.Gen.ReferenceIdeal.Read
import proofs.«108938_j82154134438094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Post2

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- A one-column array broadcast over the columns reads, at (p, c), the column's entry p. -/
theorem bcast_col {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what a point stores, over its four blocks. -/
theorem pay_apply (x0 x1 : Vec Ideal S5000x64 .f32) (x2 : Vec Ideal S5000x1 .f32) (x3 : Vec Ideal S1x64 .f32) (p : Fin 5000) (q : Fin 64) :
    k3_pay1 (F := Ideal) x0 x1 x2 x3 (ix2 p q)
      = x0 (ix2 p q) + x1 (ix2 p q) * x2 (ix2 p (0 : Fin 1)) + x3 (ix2 (0 : Fin 1) q) := by
  have e0 : shapeCast S5000x64 x0 shapeCasts_S5000x64_S5000x64 = x0 := shapeCast_self x0 _
  have e1 : shapeCast S5000x64 x1 shapeCasts_S5000x64_S5000x64 = x1 := shapeCast_self x1 _
  have e2 : shapeCast S5000x1 x2 shapeCasts_S5000x1_S5000x1 = x2 := shapeCast_self x2 _
  have e3 : shapeCast S1x64 x3 shapeCasts_S1x64_S1x64 = x3 := shapeCast_self x3 _
  have b2 : broadcastTo S5000x64 x2 broadcasts_S5000x1_S5000x64 (ix2 p q) = x2 (ix2 p (0 : Fin 1)) := bcast_col x2 _ p q
  have b3 : broadcastTo S5000x64 x3 broadcasts_S1x64_S5000x64 (ix2 p q) = x3 (ix2 (0 : Fin 1) q) := broadcastTo_1b_ab_apply x3 _ p q
  unfold k3_pay1
  show shapeCast S5000x64 x0 shapeCasts_S5000x64_S5000x64 (ix2 p q)
        + shapeCast S5000x64 x1 shapeCasts_S5000x64_S5000x64 (ix2 p q)
          * broadcastTo S5000x64 (shapeCast S5000x1 x2 shapeCasts_S5000x1_S5000x1) broadcasts_S5000x1_S5000x64 (ix2 p q)
        + broadcastTo S5000x64 (shapeCast S1x64 x3 shapeCasts_S1x64_S1x64) broadcasts_S1x64_S5000x64 (ix2 p q) = _
  rw [e0, e1, e2, e3, b2, b3]

/-- Layer two's closing stage at entry (r, q): the sum over edges plus the node's own row scaled by its
    weight plus the bias. -/
theorem post2_apply (agg h : Cert.Gcn.CF Cert.ReferenceIdeal.S100000x64) (selfc : Cert.Gcn.CF Cert.ReferenceIdeal.S100000x1)
    (biasr : Cert.Gcn.CF Cert.ReferenceIdeal.S1x64) (r : Fin 100000) (q : Fin 64) :
    Cert.Gcn.post2 agg h selfc biasr (ix2 r q)
      = agg (ix2 r q) + h (ix2 r q) * selfc (ix2 r (0 : Fin 1)) + biasr (ix2 (0 : Fin 1) q) := by
  have bs : broadcastInDim Cert.ReferenceIdeal.S100000x64 ![0, 1] Cert.ReferenceIdeal.Gen.bcast_S100000x1_S100000x64_0_1 selfc (ix2 r q)
      = selfc (ix2 r (0 : Fin 1)) :=
    broadcastInDim_apply _ _ selfc (ix2 r q) (ix2 r (0 : Fin 1)) (fun a => by
      match a with
      | ⟨0, _⟩ => rfl
      | ⟨1, _⟩ => rfl)
  have bb : broadcastInDim Cert.ReferenceIdeal.S100000x64 ![0, 1] Cert.ReferenceIdeal.Gen.bcast_S1x64_S100000x64_0_1 biasr (ix2 r q)
      = biasr (ix2 (0 : Fin 1) q) :=
    broadcastInDim_apply _ _ biasr (ix2 r q) (ix2 (0 : Fin 1) q) (fun a => by
      match a with
      | ⟨0, _⟩ => rfl
      | ⟨1, _⟩ => rfl)
  unfold Cert.Gcn.post2
  show agg (ix2 r q)
        + h (ix2 r q) * broadcastInDim Cert.ReferenceIdeal.S100000x64 ![0, 1] Cert.ReferenceIdeal.Gen.bcast_S100000x1_S100000x64_0_1 selfc (ix2 r q)
        + broadcastInDim Cert.ReferenceIdeal.S100000x64 ![0, 1] Cert.ReferenceIdeal.Gen.bcast_S1x64_S100000x64_0_1 biasr (ix2 r q) = _
  rw [bs, bb]

/-- A point's stored block whose input blocks are rows 5000 r … of agg, of h and of the self column, and the
    whole bias row, is those rows of the whole-array stage. -/
theorem block_eq (agg h : Cert.Gcn.CF Cert.ReferenceIdeal.S100000x64) (selfc : Cert.Gcn.CF Cert.ReferenceIdeal.S100000x1) (biasr : Cert.Gcn.CF Cert.ReferenceIdeal.S1x64)
    (r : Nat) (hr : r < 20) (x0 x1 : Vec Ideal S5000x64 .f32) (x2 : Vec Ideal S5000x1 .f32) (x3 : Vec Ideal S1x64 .f32)
    (h0 : ∀ (p : Fin 5000) (q : Fin 64), x0 (ix2 p q) = agg (ix2 (⟨r * 5000 + p.val, by omega⟩ : Fin 100000) q))
    (h1 : ∀ (p : Fin 5000) (q : Fin 64), x1 (ix2 p q) = h (ix2 (⟨r * 5000 + p.val, by omega⟩ : Fin 100000) q))
    (h2 : ∀ (p : Fin 5000), x2 (ix2 p (0 : Fin 1)) = selfc (ix2 (⟨r * 5000 + p.val, by omega⟩ : Fin 100000) (0 : Fin 1)))
    (h3 : ∀ (q : Fin 64), x3 (ix2 (0 : Fin 1) q) = biasr (ix2 (0 : Fin 1) q)) (p : Fin 5000) (q : Fin 64) :
    k3_pay1 (F := Ideal) x0 x1 x2 x3 (ix2 p q)
      = Cert.Gcn.post2 agg h selfc biasr (ix2 (⟨r * 5000 + p.val, by omega⟩ : Fin 100000) q) := by
  rw [pay_apply, post2_apply, h0, h1, h2, h3]

/-- The printed index maps over the grid: the three row-block windows and the result window move one block of
    rows per point, the bias window stays. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of the whole-array stage. -/
theorem flushed_eq (c : Dev nD) (t : Fin cfg3.N) :
    (dat3 V c).flushed 4 t = ((cfg3.win 4).blk t).view.read (Elt Ideal)
      (Cert.Gcn.post2 (V c main_v58) (V c main_v45) (V c main_v27) (V c main_v29)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz, View.ld_unit_zero (S := S1x64) hz]
  obtain ⟨e0, e1, e2, e3, e4, e5, e6, e7, e8, e9⟩ := idx_facts t
  have ht : t.val < 20 := lt_of_lt_of_eq t.isLt N_3
  funext j
  obtain ⟨p, q, rfl⟩ : ∃ (p : Fin 5000) (q : Fin 64), j = ix2 p q := ⟨j 0, j 1, eq_ix2 j⟩
  refine (block_eq (V c main_v58) (V c main_v45) (V c main_v27) (V c main_v29) t.val ht
    (iblk3 V c 0 t) (iblk3 V c 1 t) (iblk3 V c 2 t) (iblk3 V c 3 t) ?_ ?_ ?_ ?_ p q).trans ?_
  · intro p q
    show V c main_v58 (((cfg3.win 0).blk t).view.emb (ix2 p q)) = V c main_v58 _
    refine congrArg (V c main_v58) (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * q.val = q.val; omega
  · intro p q
    show V c main_v45 (((cfg3.win 1).blk t).view.emb (ix2 p q)) = V c main_v45 _
    refine congrArg (V c main_v45) (funext fun a => Fin.ext ?_)
    match a with
    | ⟨0, _⟩ => show win3_1.index t (0 : Fin 2) * 5000 + 1 * p.val = t.val * 5000 + p.val; omega
    | ⟨1, _⟩ => show win3_1.index t (1 : Fin 2) * 64 + 1 * q.val = q.val; omega
  · intro p
    show V c main_v27 (((cfg3.win 2).blk t).view.emb (ix2 p (0 : Fin 1))) = V c main_v27 _
    refine congrArg (V c main_v27) (funext fun a => Fin.ext ?_)
    match a with
    | ⟨0, _⟩ => show win3_2.index t (0 : Fin 2) * 5000 + 1 * p.val = t.val * 5000 + p.val; omega
    | ⟨1, _⟩ => show win3_2.index t (1 : Fin 2) * 1 + 1 * 0 = 0; omega
  · intro q
    show V c main_v29 (((cfg3.win 3).blk t).view.emb (ix2 (0 : Fin 1) q)) = V c main_v29 _
    refine congrArg (V c main_v29) (funext fun a => Fin.ext ?_)
    match a with
    | ⟨0, _⟩ => show win3_3.index t (0 : Fin 2) * 1 + 1 * 0 = 0; omega
    | ⟨1, _⟩ => show win3_3.index t (1 : Fin 2) * 64 + 1 * q.val = q.val; omega
  · show Cert.Gcn.post2 (V c main_v58) (V c main_v45) (V c main_v27) (V c main_v29) _
      = Cert.Gcn.post2 (V c main_v58) (V c main_v45) (V c main_v27) (V c main_v29) (((cfg3.win 4).blk t).view.emb (ix2 p q))
    refine congrArg (Cert.Gcn.post2 (V c main_v58) (V c main_v45) (V c main_v27) (V c main_v29)) (funext fun a => Fin.ext ?_)
    match a with
    | ⟨0, _⟩ => show t.val * 5000 + p.val = win3_4.index t (0 : Fin 2) * 5000 + 1 * p.val; omega
    | ⟨1, _⟩ => show q.val = win3_4.index t (1 : Fin 2) * 64 + 1 * q.val; omega

/-- An index of the result is in point t's block iff each coordinate is in the block's range on its axis. -/
theorem mem_blk (t : Fin cfg3.N) (i : S100000x64.Idx) :
    i ∈ ((cfg3.win 4).blk t).view.set ↔ ∀ a : Fin 2, win3_4.index t a * S5000x64.size a ≤ (i a).val
      ∧ (i a).val < win3_4.index t a * S5000x64.size a + S5000x64.size a := by
  show i ∈ ((View.whole main_v59).slice (win3_4.rect t)).set ↔ _
  rw [View.set_slice_whole, Rect.mem_set_unit]
  exact Iff.rfl

/-- Row r of the result lies in the block of point r / 5000. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  have htl : (i 0).val / 5000 < grid3.N := by rw [hN]; omega
  obtain ⟨e0, e1, e2, e3, e4, e5, e6, e7, e8, e9⟩ := idx_facts ⟨(i 0).val / 5000, htl⟩
  refine ⟨⟨(i 0).val / 5000, htl⟩, flush3_4 _, ?_⟩
  rw [mem_blk]
  intro a
  match a with
  | ⟨0, _⟩ =>
    show win3_4.index ⟨(i 0).val / 5000, htl⟩ (0 : Fin 2) * 5000 ≤ (i 0).val
      ∧ (i 0).val < win3_4.index ⟨(i 0).val / 5000, htl⟩ (0 : Fin 2) * 5000 + 5000
    rw [e8]
    show (i 0).val / 5000 * 5000 ≤ (i 0).val ∧ (i 0).val < (i 0).val / 5000 * 5000 + 5000
    omega
  | ⟨1, _⟩ =>
    show win3_4.index ⟨(i 0).val / 5000, htl⟩ (1 : Fin 2) * 64 ≤ (i 1).val
      ∧ (i 1).val < win3_4.index ⟨(i 0).val / 5000, htl⟩ (1 : Fin 2) * 64 + 64
    rw [e9]
    omega

/-- The array the launch leaves is the whole-array stage of the arrays it found. -/
theorem value (c : Dev nD) : (dat3 V c).arrAt 4 cfg3.N
    = Cert.Gcn.post2 (V c main_v58) (V c main_v45) (V c main_v27) (V c main_v29) :=
  (dat3 V c).arrAt_eq_of_cover 4 _ (fun t _ => flushed_eq V c t) cover

end Cert.KernelIdeal.Post2

end
-- ==== Proof.Head.lean ====
/-
  The head, read as one block.  The last launch has a single grid point, and at it every window's block is its
  whole array: the pooled embedding (512 x 64), the per-graph scalars (512 x 2), W3 (66 x 128), b3 as a row
  (1 x 128), W4 (128 x 1) and b4 as a row (1 x 1).  The body joins the embedding and the scalars along the
  columns, multiplies by W3, adds the row b3 to every row, takes the maximum with zero, multiplies by W4, adds
  b4 to every row and applies the logistic function.  Over the extended reals a narrowing of the number format
  changes nothing, a matrix product into a zero accumulator is the matrix product, a row repeated over the rows
  is one array however it is spelt, and the logistic function is 1 / (1 + exp (-x)).  Entry (r, 0) of the result
  depends on row r of the joined matrix and on all of W3, b3, W4, b4.  So the block the body stores is the head
  of the arrays the launch found, and that one block is the whole 512 x 1 result.
-/
import proofs.«108938_j82154134438094_1_alg».proof.Proof.Gen.KernelIdeal.Frame
import proofs.«108938_j82154134438094_1_alg».proof.Proof.Gen.ReferenceIdeal.Read
import proofs.«108938_j82154134438094_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Head

open Idealize.ShloMosaic Idealize.ShloMosaic.TcCoe Idealize.SL.Sem
open Cert.KernelIdeal Cert.KernelIdeal.Gen
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-! ## The stages, array by array -/

/-- A matrix product of narrowed operands into the zero accumulator is the matrix product of the operands:
    both are, entry by entry, the same sum over the contracted axis. -/
theorem matmul_eq_dot {sl sr so : Shape} (D : DotDims sl sr so) (a : FVec Ideal sl .f32) (w : FVec Ideal sr .f32)
    (h1 h2 : FTy.bits .bf16 < FTy.bits .f32) :
    matmul D none (truncf .bf16 a h1) (truncf .bf16 w h2) (constant (F := Ideal) so .f32 0x00000000#32)
      = Host.dotGeneral (F := Ideal) D none a w :=
  funext fun j => (Ideal.matmul_constant_zero_apply D none (truncf .bf16 a h1) (truncf .bf16 w h2) j).trans
    (Ideal.dotGeneral_apply D none .single a w j).symm

/-- The two programs' dimension numbers of the first product are one record. -/
theorem dims3_eq : (dot_S512x66_S66x128_S512x128_1_0_0_1_n_n : DotDims S512x66 S66x128 S512x128)
    = Cert.ReferenceIdeal.dot_S512x66_S66x128_S512x128_1_0_0_1_n_n := rfl
/-- The two programs' dimension numbers of the second product are one record. -/
theorem dims4_eq : (dot_S512x128_S128x1_S512x1_1_0_0_1_n_n : DotDims S512x128 S128x1 S512x1)
    = Cert.ReferenceIdeal.dot_S512x128_S128x1_S512x1_1_0_0_1_n_n := rfl

/-- A row repeated over the rows: entry (p, c) of either spelling is entry (0, c) of the row. -/
theorem row_bcast {α : Type} {a b : ℕ} (v : (⟨2, ![1, b]⟩ : Shape).Idx → α)
    (h : (⟨2, ![1, b]⟩ : Shape).Broadcasts ⟨2, ![a, b]⟩)
    (h' : (⟨2, ![1, b]⟩ : Shape).BroadcastsInDim ⟨2, ![a, b]⟩ ![0, 1]) :
    broadcastTo ⟨2, ![a, b]⟩ v h = broadcastInDim ⟨2, ![a, b]⟩ ![0, 1] h' v := by
  funext j
  obtain ⟨p, c, rfl⟩ : ∃ (p : Fin a) (c : Fin b), j = ix2 p c := ⟨j 0, j 1, eq_ix2 j⟩
  refine (broadcastTo_1b_ab_apply v h p c).trans
    (broadcastInDim_apply ![0, 1] h' v (ix2 p c) (ix2 (0 : Fin 1) c) fun ax => ?_).symm
  match ax with
  | ⟨0, _⟩ => rfl
  | ⟨1, _⟩ =>
    show c.val = if b = 1 then 0 else c.val
    split
    · have := c.isLt; omega
    · rfl

/-- The zero splat: the scalar zero repeated, in either spelling. -/
theorem zero_splat {T : Shape} (h : (⟨0, ![]⟩ : Shape).BroadcastsInDim T ![]) :
    broadcast T (Scalar.ofBits (F := Ideal) .f32 0x00000000#32)
      = broadcastInDim T ![] h (constant (F := Ideal) ⟨0, ![]⟩ .f32 0x00000000#32) :=
  funext fun _ => rfl

/-- The bit pattern of the float one is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- The logistic function is 1 / (1 + exp (-x)), the ones a scalar repeated. -/
theorem logistic_eq {T : Shape} (v : FVec Ideal T .f32) (h : (⟨0, ![]⟩ : Shape).BroadcastsInDim T ![]) :
    logistic v = Host.divf (broadcastInDim T ![] h (constant (F := Ideal) ⟨0, ![]⟩ .f32 0x3F800000#32))
      (addf (broadcastInDim T ![] h (constant (F := Ideal) ⟨0, ![]⟩ .f32 0x3F800000#32)) (Host.exp (Host.negf v))) := by
  funext j
  show Ideal.logistic (v j)
    = Ideal.div (Ideal.ofBits .f32 0x3F800000#32) (Ideal.ofBits .f32 0x3F800000#32 + Ideal.exp (-(v j)))
  rw [one_f32]
  rfl

/-! ## The body's value is the head of its blocks -/

/-- The stored value, as a whole array, is the head of the six loaded arrays. -/
theorem pay_eq (x0 : Vec Ideal S512x64 .f32) (x1 : Vec Ideal S512x2 .f32) (x2 : Vec Ideal S66x128 .f32)
    (x3 : Vec Ideal S1x128 .f32) (x4 : Vec Ideal S128x1 .f32) (x5 : Vec Ideal S1x1 .f32) :
    k4_pay1 (F := Ideal) x0 x1 x2 x3 x4 x5 = Cert.Gcn.head x0 x1 x2 x3 x4 x5 := by
  unfold k4_pay1 Cert.Gcn.head
  show logistic (addf (matmul dot_S512x128_S128x1_S512x1_1_0_0_1_n_n none
          (truncf .bf16 (maximumf (addf (matmul dot_S512x66_S66x128_S512x128_1_0_0_1_n_n none
                  (truncf .bf16 (concatenate S512x66 1 [⟨S512x64, shapeCast S512x64 x0 _⟩, ⟨S512x2, x1⟩] _) _)
                  (truncf .bf16 x2 _) (constant (F := Ideal) S512x128 .f32 0x00000000#32))
                (broadcastTo S512x128 (shapeCast S1x128 x3 _) _))
              (broadcast S512x128 (Scalar.ofBits (F := Ideal) .f32 0x00000000#32))) _)
          (truncf .bf16 x4 _) (constant (F := Ideal) S512x1 .f32 0x00000000#32))
        (broadcastTo S512x1 (shapeCast S1x1 x5 _) _)) = _
  rw [shapeCast_self x0, shapeCast_self x3, shapeCast_self x5, matmul_eq_dot, matmul_eq_dot,
    row_bcast x3 _ Cert.ReferenceIdeal.Gen.bcast_S1x128_S512x128_0_1,
    row_bcast x5 _ Cert.ReferenceIdeal.Gen.bcast_S1x1_S512x1_0_1,
    zero_splat Cert.ReferenceIdeal.Gen.bcast_S_S512x128,
    logistic_eq _ Cert.ReferenceIdeal.Gen.bcast_S_S512x1, dims3_eq, dims4_eq]

/-- The body's value at an entry, from blocks that agree entry by entry with the whole arrays. -/
theorem block_eq (A0 : Cert.Gcn.CF Cert.ReferenceIdeal.S512x64) (A1 : Cert.Gcn.CF Cert.ReferenceIdeal.S512x2)
    (A2 : Cert.Gcn.CF Cert.ReferenceIdeal.S66x128) (A3 : Cert.Gcn.CF Cert.ReferenceIdeal.S1x128)
    (A4 : Cert.Gcn.CF Cert.ReferenceIdeal.S128x1) (A5 : Cert.Gcn.CF Cert.ReferenceIdeal.S1x1)
    (x0 : Vec Ideal S512x64 .f32) (x1 : Vec Ideal S512x2 .f32) (x2 : Vec Ideal S66x128 .f32)
    (x3 : Vec Ideal S1x128 .f32) (x4 : Vec Ideal S128x1 .f32) (x5 : Vec Ideal S1x1 .f32)
    (h0 : ∀ (p : Fin 512) (k : Fin 64), x0 (ix2 p k) = A0 (ix2 p k))
    (h1 : ∀ (p : Fin 512) (k : Fin 2), x1 (ix2 p k) = A1 (ix2 p k))
    (h2 : ∀ (k : Fin 66) (q : Fin 128), x2 (ix2 k q) = A2 (ix2 k q))
    (h3 : ∀ (p : Fin 1) (q : Fin 128), x3 (ix2 p q) = A3 (ix2 p q))
    (h4 : ∀ (k : Fin 128) (q : Fin 1), x4 (ix2 k q) = A4 (ix2 k q))
    (h5 : ∀ (p : Fin 1) (q : Fin 1), x5 (ix2 p q) = A5 (ix2 p q)) (p : Fin 512) (q : Fin 1) :
    k4_pay1 (F := Ideal) x0 x1 x2 x3 x4 x5 (ix2 p q) = Cert.Gcn.head A0 A1 A2 A3 A4 A5 (ix2 p q) := by
  have e0 : x0 = A0 := funext fun j => by rw [eq_ix2 j]; exact h0 _ _
  have e1 : x1 = A1 := funext fun j => by rw [eq_ix2 j]; exact h1 _ _
  have e2 : x2 = A2 := funext fun j => by rw [eq_ix2 j]; exact h2 _ _
  have e3 : x3 = A3 := funext fun j => by rw [eq_ix2 j]; exact h3 _ _
  have e4 : x4 = A4 := funext fun j => by rw [eq_ix2 j]; exact h4 _ _
  have e5 : x5 = A5 := funext fun j => by rw [eq_ix2 j]; exact h5 _ _
  rw [pay_eq, e0, e1, e2, e3, e4, e5]

/-! ## The one block is the whole result -/

/-- The printed index maps at the grid's one point: every window's block is block 0 on both axes. -/
theorem idx_facts : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- What the one point writes back is the head of the arrays the launch found, read through the result's block. -/
theorem flushed_eq (c : Dev nD) (t : Fin cfg4.N) :
    (dat4 V c).flushed 6 t = ((cfg4.win 6).blk t).view.read (Elt Ideal)
      (Cert.Gcn.head (V c main_v71) (V c main_arg3) (V c main_arg8) (V c main_v72) (V c main_arg10) (V c main_v73)) := by
  show (cfg4.win 6).cut (grid4.coords t) ((dat4 V c).after 6 t) = _
  rw [after4_6]
  unfold out4_6
  rw [View.canon_unit_zero hz]
  simp only [View.ld_unit_zero (S := S512x64) hz, View.ld_unit_zero (S := S512x2) hz, View.ld_unit_zero (S := S66x128) hz,
    View.ld_unit_zero (S := S1x128) hz, View.ld_unit_zero (S := S128x1) hz, View.ld_unit_zero (S := S1x1) hz]
  obtain ⟨a0, a1, b0, b1, c0, c1, d0, d1, e0, e1, f0, f1, g0, g1⟩ := idx_facts t
  funext j
  obtain ⟨p, q, rfl⟩ : ∃ (p : Fin 512) (q : Fin 1), j = ix2 p q := ⟨j 0, j 1, eq_ix2 j⟩
  refine (block_eq (V c main_v71) (V c main_arg3) (V c main_arg8) (V c main_v72) (V c main_arg10) (V c main_v73)
    (iblk4 V c 0 t) (iblk4 V c 1 t) (iblk4 V c 2 t) (iblk4 V c 3 t) (iblk4 V c 4 t) (iblk4 V c 5 t)
    ?_ ?_ ?_ ?_ ?_ ?_ p q).trans ?_
  · intro p k
    show V c main_v71 (((cfg4.win 0).blk t).view.emb (ix2 p k)) = V c main_v71 _
    refine congrArg (V c main_v71) (funext fun a => Fin.ext ?_)
    match a with
    | ⟨0, _⟩ => show win4_0.index t (0 : Fin 2) * 512 + 1 * p.val = p.val; omega
    | ⟨1, _⟩ => show win4_0.index t (1 : Fin 2) * 64 + 1 * k.val = k.val; omega
  · intro p k
    show V c main_arg3 (((cfg4.win 1).blk t).view.emb (ix2 p k)) = V c main_arg3 _
    refine congrArg (V c main_arg3) (funext fun a => Fin.ext ?_)
    match a with
    | ⟨0, _⟩ => show win4_1.index t (0 : Fin 2) * 512 + 1 * p.val = p.val; omega
    | ⟨1, _⟩ => show win4_1.index t (1 : Fin 2) * 2 + 1 * k.val = k.val; omega
  · intro k q
    show V c main_arg8 (((cfg4.win 2).blk t).view.emb (ix2 k q)) = V c main_arg8 _
    refine congrArg (V c main_arg8) (funext fun a => Fin.ext ?_)
    match a with
    | ⟨0, _⟩ => show win4_2.index t (0 : Fin 2) * 66 + 1 * k.val = k.val; omega
    | ⟨1, _⟩ => show win4_2.index t (1 : Fin 2) * 128 + 1 * q.val = q.val; omega
  · intro p q
    show V c main_v72 (((cfg4.win 3).blk t).view.emb (ix2 p q)) = V c main_v72 _
    refine congrArg (V c main_v72) (funext fun a => Fin.ext ?_)
    match a with
    | ⟨0, _⟩ => show win4_3.index t (0 : Fin 2) * 1 + 1 * p.val = p.val; omega
    | ⟨1, _⟩ => show win4_3.index t (1 : Fin 2) * 128 + 1 * q.val = q.val; omega
  · intro k q
    show V c main_arg10 (((cfg4.win 4).blk t).view.emb (ix2 k q)) = V c main_arg10 _
    refine congrArg (V c main_arg10) (funext fun a => Fin.ext ?_)
    match a with
    | ⟨0, _⟩ => show win4_4.index t (0 : Fin 2) * 128 + 1 * k.val = k.val; omega
    | ⟨1, _⟩ => show win4_4.index t (1 : Fin 2) * 1 + 1 * q.val = q.val; omega
  · intro p q
    show V c main_v73 (((cfg4.win 5).blk t).view.emb (ix2 p q)) = V c main_v73 _
    refine congrArg (V c main_v73) (funext fun a => Fin.ext ?_)
    match a with
    | ⟨0, _⟩ => show win4_5.index t (0 : Fin 2) * 1 + 1 * p.val = p.val; omega
    | ⟨1, _⟩ => show win4_5.index t (1 : Fin 2) * 1 + 1 * q.val = q.val; omega
  · show Cert.Gcn.head (V c main_v71) (V c main_arg3) (V c main_arg8) (V c main_v72) (V c main_arg10) (V c main_v73) _
      = Cert.Gcn.head (V c main_v71) (V c main_arg3) (V c main_arg8) (V c main_v72) (V c main_arg10) (V c main_v73)
        (((cfg4.win 6).blk t).view.emb (ix2 p q))
    refine congrArg (Cert.Gcn.head (V c main_v71) (V c main_arg3) (V c main_arg8) (V c main_v72) (V c main_arg10) (V c main_v73))
      (funext fun a => Fin.ext ?_)
    match a with
    | ⟨0, _⟩ => show p.val = win4_6.index t (0 : Fin 2) * 512 + 1 * p.val; omega
    | ⟨1, _⟩ => show q.val = win4_6.index t (1 : Fin 2) * 1 + 1 * q.val; omega

/-- An index of the result is in the point's block iff each coordinate is in the block's range on its axis. -/
theorem mem_blk (t : Fin cfg4.N) (i : S512x1.Idx) :
    i ∈ ((cfg4.win 6).blk t).view.set ↔ ∀ a : Fin 2, win4_6.index t a * S512x1.size a ≤ (i a).val
      ∧ (i a).val < win4_6.index t a * S512x1.size a + S512x1.size a := by
  show i ∈ ((View.whole main_v74).slice (win4_6.rect t)).set ↔ _
  rw [View.set_slice_whole, Rect.mem_set_unit]
  exact Iff.rfl

/-- Every entry of the result lies in the block of the grid's one point. -/
theorem cover (i : S512x1.Idx) : ∃ t : Fin cfg4.N, (cfg4.win 6).flush t = true ∧ i ∈ ((cfg4.win 6).blk t).view.set := by
  have hi0 : (i 0).val < 512 := (i 0).isLt
  have hi1 : (i 1).val < 1 := (i 1).isLt
  obtain ⟨a0, a1, b0, b1, c0, c1, d0, d1, e0, e1, f0, f1, g0, g1⟩ := idx_facts t4_0
  refine ⟨t4_0, flush4_6 _, ?_⟩
  rw [mem_blk]
  intro a
  match a with
  | ⟨0, _⟩ =>
    show win4_6.index t4_0 (0 : Fin 2) * 512 ≤ (i 0).val ∧ (i 0).val < win4_6.index t4_0 (0 : Fin 2) * 512 + 512
    rw [g0]
    omega
  | ⟨1, _⟩ =>
    show win4_6.index t4_0 (1 : Fin 2) * 1 ≤ (i 1).val ∧ (i 1).val < win4_6.index t4_0 (1 : Fin 2) * 1 + 1
    rw [g1]
    omega

/-- The array the last launch leaves is the head of the arrays it found. -/
theorem value (c : Dev nD) : (dat4 V c).arrAt 6 cfg4.N
    = Cert.Gcn.head (V c main_v71) (V c main_arg3) (V c main_arg8) (V c main_v72) (V c main_arg10) (V c main_v73) :=
  (dat4 V c).arrAt_eq_of_cover 6 _ (fun t _ => flushed_eq V c t) cover

end Cert.KernelIdeal.Head

end
-- ==== Proof.Chain.lean ====
/-
  The buffers' contents at each boundary of the program, followed from the launch to the result.  At each
  boundary every buffer a later step reads is one stage of the network applied to the argument arrays: a stretch
  of array operations computes its stages from the stages before it, a launch leaves its output at the stage its
  blocks assemble, and every other buffer is carried over unchanged.  At the last boundary the result buffer
  holds the head applied to the pooled second layer, which is the network.
-/
import proofs.«108938_j82154134438094_1_alg».proof.Proof.Gen.KernelIdeal.Frame
import proofs.«108938_j82154134438094_1_alg».proof.Proof.Spec
import proofs.«108938_j82154134438094_1_alg».proof.Proof.Layout
import proofs.«108938_j82154134438094_1_alg».proof.Proof.Stretch
import proofs.«108938_j82154134438094_1_alg».proof.Proof.Proj1
import proofs.«108938_j82154134438094_1_alg».proof.Proof.Proj2
import proofs.«108938_j82154134438094_1_alg».proof.Proof.Post1
import proofs.«108938_j82154134438094_1_alg».proof.Proof.Post2
import proofs.«108938_j82154134438094_1_alg».proof.Proof.Head

set_option maxRecDepth 16384

noncomputable section

namespace Cert.KernelIdeal.Chain

open Idealize.ShloMosaic Idealize.ShloMosaic.TcCoe Idealize.SL.Sem
open Cert.KernelIdeal Cert.KernelIdeal.Gen
open Cert.Gcn (CF CI)

theorem congr4 {α β γ δ ε : Sort _} (f : α → β → γ → δ → ε) {a a' : α} {b b' : β} {c c' : γ} {d d' : δ}
    (ha : a = a') (hb : b = b') (hc : c = c') (hd : d = d') : f a b c d = f a' b' c' d' := by
  subst ha hb hc hd; rfl
theorem congr6 {α β γ δ ε ζ η : Sort _} (f : α → β → γ → δ → ε → ζ → η) {a a' : α} {b b' : β} {c c' : γ} {d d' : δ}
    {e e' : ε} {g g' : ζ} (ha : a = a') (hb : b = b') (hc : c = c') (hd : d = d') (he : e = e') (hg : g = g') :
    f a b c d e g = f a' b' c' d' e' g' := by
  subst ha hb hc hd he hg; rfl

variable (m : (ℓ : Loc nD τ sig) → Buf (Elt Ideal) ℓ) (ρ : Dev nD → PrngReg) (c : Dev nD)

/-! ## The argument arrays as launched, and the stages -/

abbrev aX : CF Cert.ReferenceIdeal.S100000x256 := m ((c : Thread nD τ).loc main_arg0)
abbrev aE : CI Cert.ReferenceIdeal.S2x1600000 := m ((c : Thread nD τ).loc main_arg1)
abbrev aB : CI Cert.ReferenceIdeal.S100000 := m ((c : Thread nD τ).loc main_arg2)
abbrev aS : CF Cert.ReferenceIdeal.S512x2 := m ((c : Thread nD τ).loc main_arg3)
abbrev aW1 : CF Cert.ReferenceIdeal.S256x128 := m ((c : Thread nD τ).loc main_arg4)
abbrev ab1 : CF Cert.ReferenceIdeal.S128 := m ((c : Thread nD τ).loc main_arg5)
abbrev aW2 : CF Cert.ReferenceIdeal.S128x64 := m ((c : Thread nD τ).loc main_arg6)
abbrev ab2 : CF Cert.ReferenceIdeal.S64 := m ((c : Thread nD τ).loc main_arg7)
abbrev aW3 : CF Cert.ReferenceIdeal.S66x128 := m ((c : Thread nD τ).loc main_arg8)
abbrev ab3 : CF Cert.ReferenceIdeal.S128 := m ((c : Thread nD τ).loc main_arg9)
abbrev aW4 : CF Cert.ReferenceIdeal.S128x1 := m ((c : Thread nD τ).loc main_arg10)
abbrev ab4 : CF Cert.ReferenceIdeal.S1 := m ((c : Thread nD τ).loc main_arg11)

abbrev vSrc : CI Cert.ReferenceIdeal.S1600000 := Cert.Gcn.src (aE m c)
abbrev vDst : CI Cert.ReferenceIdeal.S1600000 := Cert.Gcn.dst (aE m c)
abbrev vNorm : CF Cert.ReferenceIdeal.S1600000 := Cert.Gcn.norm (vSrc m c) (vDst m c)
abbrev vSelf : CF Cert.ReferenceIdeal.S100000x1 := shapeCast S100000x1 (Cert.Gcn.selfTerm (vDst m c)) shapeCasts_S100000_S100000x1
abbrev vB1 : CF Cert.ReferenceIdeal.S1x128 := shapeCast S1x128 (ab1 m c) shapeCasts_S128_S1x128
abbrev vB2 : CF Cert.ReferenceIdeal.S1x64 := shapeCast S1x64 (ab2 m c) shapeCasts_S64_S1x64
abbrev vB3 : CF Cert.ReferenceIdeal.S1x128 := shapeCast S1x128 (ab3 m c) shapeCasts_S128_S1x128
abbrev vB4 : CF Cert.ReferenceIdeal.S1x1 := shapeCast S1x1 (ab4 m c) shapeCasts_S1_S1x1
abbrev vH0 : CF Cert.ReferenceIdeal.S100000x128 := Cert.Gcn.lin1 (aX m c) (aW1 m c)
abbrev vA1 : CF Cert.ReferenceIdeal.S100000x128 := Cert.Gcn.agg128 (vH0 m c) (vSrc m c) (vDst m c) (vNorm m c)
abbrev vH1 : CF Cert.ReferenceIdeal.S100000x128 := Cert.Gcn.post1 (vA1 m c) (vH0 m c) (vSelf m c) (vB1 m c)
abbrev vG0 : CF Cert.ReferenceIdeal.S100000x64 := Cert.Gcn.lin2 (vH1 m c) (aW2 m c)
abbrev vA2 : CF Cert.ReferenceIdeal.S100000x64 := Cert.Gcn.agg64 (vG0 m c) (vSrc m c) (vDst m c) (vNorm m c)
abbrev vH2 : CF Cert.ReferenceIdeal.S100000x64 := Cert.Gcn.post2 (vA2 m c) (vG0 m c) (vSelf m c) (vB2 m c)
abbrev vEmb : CF Cert.ReferenceIdeal.S512x64 := Cert.Gcn.pool (vH2 m c) (aB m c)
abbrev vOut : CF Cert.ReferenceIdeal.S512x1 :=
  Cert.Gcn.head (vEmb m c) (aS m c) (aW3 m c) (vB3 m c) (aW4 m c) (vB4 m c)

/-! ## Boundary 1: after the first stretch -/

theorem l1_arg0 : W1 m ρ c (Proc.devRef .tc main_arg0) = aX m c :=
  Stretch.a_arg0 (W0 m ρ c)
theorem l1_arg4 : W1 m ρ c (Proc.devRef .tc main_arg4) = aW1 m c :=
  Stretch.a_arg4 (W0 m ρ c)
theorem l1_arg2 : W1 m ρ c (Proc.devRef .tc main_arg2) = aB m c :=
  Stretch.a_arg2 (W0 m ρ c)
theorem l1_arg3 : W1 m ρ c (Proc.devRef .tc main_arg3) = aS m c :=
  Stretch.a_arg3 (W0 m ρ c)
theorem l1_arg6 : W1 m ρ c (Proc.devRef .tc main_arg6) = aW2 m c :=
  Stretch.a_arg6 (W0 m ρ c)
theorem l1_arg8 : W1 m ρ c (Proc.devRef .tc main_arg8) = aW3 m c :=
  Stretch.a_arg8 (W0 m ρ c)
theorem l1_arg9 : W1 m ρ c (Proc.devRef .tc main_arg9) = ab3 m c :=
  Stretch.a_arg9 (W0 m ρ c)
theorem l1_arg10 : W1 m ρ c (Proc.devRef .tc main_arg10) = aW4 m c :=
  Stretch.a_arg10 (W0 m ρ c)
theorem l1_arg11 : W1 m ρ c (Proc.devRef .tc main_arg11) = ab4 m c :=
  Stretch.a_arg11 (W0 m ρ c)
theorem l1_v1 : W1 m ρ c (Proc.devRef .tc main_v1) = vSrc m c :=
  Stretch.a_v1 (W0 m ρ c)
theorem l1_v3 : W1 m ρ c (Proc.devRef .tc main_v3) = vDst m c :=
  Stretch.a_v3 (W0 m ρ c)
theorem l1_v25 : W1 m ρ c (Proc.devRef .tc main_v25) = vNorm m c :=
  Stretch.a_v25 (W0 m ρ c)
theorem l1_v27 : W1 m ρ c (Proc.devRef .tc main_v27) = vSelf m c :=
  Stretch.a_v27 (W0 m ρ c)
theorem l1_v28 : W1 m ρ c (Proc.devRef .tc main_v28) = vB1 m c :=
  Stretch.a_v28 (W0 m ρ c)
theorem l1_v29 : W1 m ρ c (Proc.devRef .tc main_v29) = vB2 m c :=
  Stretch.a_v29 (W0 m ρ c)

/-! ## Boundary 2: after the first launch -/

theorem l2_v30 : W2 m ρ c (Proc.devRef .tc main_v30) = vH0 m c :=
  (W2_arr m ρ c 2).trans ((Proj1.value (V1 m ρ) c).trans (congrArg₂ Cert.Gcn.lin1 (l1_arg0 m ρ c) (l1_arg4 m ρ c)))
theorem l2_v1 : W2 m ρ c (Proc.devRef .tc main_v1) = vSrc m c :=
  (W2_of_ne m ρ c main_v1 (by decide)).trans (l1_v1 m ρ c)
theorem l2_v3 : W2 m ρ c (Proc.devRef .tc main_v3) = vDst m c :=
  (W2_of_ne m ρ c main_v3 (by decide)).trans (l1_v3 m ρ c)
theorem l2_v25 : W2 m ρ c (Proc.devRef .tc main_v25) = vNorm m c :=
  (W2_of_ne m ρ c main_v25 (by decide)).trans (l1_v25 m ρ c)
theorem l2_v27 : W2 m ρ c (Proc.devRef .tc main_v27) = vSelf m c :=
  (W2_of_ne m ρ c main_v27 (by decide)).trans (l1_v27 m ρ c)
theorem l2_v28 : W2 m ρ c (Proc.devRef .tc main_v28) = vB1 m c :=
  (W2_of_ne m ρ c main_v28 (by decide)).trans (l1_v28 m ρ c)
theorem l2_v29 : W2 m ρ c (Proc.devRef .tc main_v29) = vB2 m c :=
  (W2_of_ne m ρ c main_v29 (by decide)).trans (l1_v29 m ρ c)
theorem l2_arg2 : W2 m ρ c (Proc.devRef .tc main_arg2) = aB m c :=
  (W2_of_ne m ρ c main_arg2 (by decide)).trans (l1_arg2 m ρ c)
theorem l2_arg3 : W2 m ρ c (Proc.devRef .tc main_arg3) = aS m c :=
  (W2_of_ne m ρ c main_arg3 (by decide)).trans (l1_arg3 m ρ c)
theorem l2_arg6 : W2 m ρ c (Proc.devRef .tc main_arg6) = aW2 m c :=
  (W2_of_ne m ρ c main_arg6 (by decide)).trans (l1_arg6 m ρ c)
theorem l2_arg8 : W2 m ρ c (Proc.devRef .tc main_arg8) = aW3 m c :=
  (W2_of_ne m ρ c main_arg8 (by decide)).trans (l1_arg8 m ρ c)
theorem l2_arg9 : W2 m ρ c (Proc.devRef .tc main_arg9) = ab3 m c :=
  (W2_of_ne m ρ c main_arg9 (by decide)).trans (l1_arg9 m ρ c)
theorem l2_arg10 : W2 m ρ c (Proc.devRef .tc main_arg10) = aW4 m c :=
  (W2_of_ne m ρ c main_arg10 (by decide)).trans (l1_arg10 m ρ c)
theorem l2_arg11 : W2 m ρ c (Proc.devRef .tc main_arg11) = ab4 m c :=
  (W2_of_ne m ρ c main_arg11 (by decide)).trans (l1_arg11 m ρ c)

/-! ## Boundary 3: after the second stretch -/

theorem l3_v43 : W3 m ρ c (Proc.devRef .tc main_v43) = vA1 m c :=
  (Stretch.b_v43 (W2 m ρ c)).trans (congr4 Cert.Gcn.agg128 (l2_v30 m ρ c) (l2_v1 m ρ c) (l2_v3 m ρ c) (l2_v25 m ρ c))
theorem l3_v30 : W3 m ρ c (Proc.devRef .tc main_v30) = vH0 m c :=
  (Stretch.b_v30 (W2 m ρ c)).trans (l2_v30 m ρ c)
theorem l3_v27 : W3 m ρ c (Proc.devRef .tc main_v27) = vSelf m c :=
  (Stretch.b_v27 (W2 m ρ c)).trans (l2_v27 m ρ c)
theorem l3_v28 : W3 m ρ c (Proc.devRef .tc main_v28) = vB1 m c :=
  (Stretch.b_v28 (W2 m ρ c)).trans (l2_v28 m ρ c)
theorem l3_v1 : W3 m ρ c (Proc.devRef .tc main_v1) = vSrc m c :=
  (Stretch.b_v1 (W2 m ρ c)).trans (l2_v1 m ρ c)
theorem l3_v3 : W3 m ρ c (Proc.devRef .tc main_v3) = vDst m c :=
  (Stretch.b_v3 (W2 m ρ c)).trans (l2_v3 m ρ c)
theorem l3_v25 : W3 m ρ c (Proc.devRef .tc main_v25) = vNorm m c :=
  (Stretch.b_v25 (W2 m ρ c)).trans (l2_v25 m ρ c)
theorem l3_v29 : W3 m ρ c (Proc.devRef .tc main_v29) = vB2 m c :=
  (Stretch.b_v29 (W2 m ρ c)).trans (l2_v29 m ρ c)
theorem l3_arg2 : W3 m ρ c (Proc.devRef .tc main_arg2) = aB m c :=
  (Stretch.b_arg2 (W2 m ρ c)).trans (l2_arg2 m ρ c)
theorem l3_arg3 : W3 m ρ c (Proc.devRef .tc main_arg3) = aS m c :=
  (Stretch.b_arg3 (W2 m ρ c)).trans (l2_arg3 m ρ c)
theorem l3_arg6 : W3 m ρ c (Proc.devRef .tc main_arg6) = aW2 m c :=
  (Stretch.b_arg6 (W2 m ρ c)).trans (l2_arg6 m ρ c)
theorem l3_arg8 : W3 m ρ c (Proc.devRef .tc main_arg8) = aW3 m c :=
  (Stretch.b_arg8 (W2 m ρ c)).trans (l2_arg8 m ρ c)
theorem l3_arg9 : W3 m ρ c (Proc.devRef .tc main_arg9) = ab3 m c :=
  (Stretch.b_arg9 (W2 m ρ c)).trans (l2_arg9 m ρ c)
theorem l3_arg10 : W3 m ρ c (Proc.devRef .tc main_arg10) = aW4 m c :=
  (Stretch.b_arg10 (W2 m ρ c)).trans (l2_arg10 m ρ c)
theorem l3_arg11 : W3 m ρ c (Proc.devRef .tc main_arg11) = ab4 m c :=
  (Stretch.b_arg11 (W2 m ρ c)).trans (l2_arg11 m ρ c)

/-! ## Boundary 4: after the second launch -/

theorem l4_v44 : W4 m ρ c (Proc.devRef .tc main_v44) = vH1 m c :=
  (W4_arr m ρ c 4).trans ((Post1.value (V3 m ρ) c).trans
    (congr4 Cert.Gcn.post1 (l3_v43 m ρ c) (l3_v30 m ρ c) (l3_v27 m ρ c) (l3_v28 m ρ c)))
theorem l4_v1 : W4 m ρ c (Proc.devRef .tc main_v1) = vSrc m c :=
  (W4_of_ne m ρ c main_v1 (by decide)).trans (l3_v1 m ρ c)
theorem l4_v3 : W4 m ρ c (Proc.devRef .tc main_v3) = vDst m c :=
  (W4_of_ne m ρ c main_v3 (by decide)).trans (l3_v3 m ρ c)
theorem l4_v25 : W4 m ρ c (Proc.devRef .tc main_v25) = vNorm m c :=
  (W4_of_ne m ρ c main_v25 (by decide)).trans (l3_v25 m ρ c)
theorem l4_v27 : W4 m ρ c (Proc.devRef .tc main_v27) = vSelf m c :=
  ((W4_arr m ρ c 2).trans (((dat1 (V3 m ρ) c).arrAt_in 2 rfl _).trans (A_eq1 (V3 m ρ) c 2))).trans (l3_v27 m ρ c)
theorem l4_v29 : W4 m ρ c (Proc.devRef .tc main_v29) = vB2 m c :=
  (W4_of_ne m ρ c main_v29 (by decide)).trans (l3_v29 m ρ c)
theorem l4_arg6 : W4 m ρ c (Proc.devRef .tc main_arg6) = aW2 m c :=
  (W4_of_ne m ρ c main_arg6 (by decide)).trans (l3_arg6 m ρ c)
theorem l4_arg2 : W4 m ρ c (Proc.devRef .tc main_arg2) = aB m c :=
  (W4_of_ne m ρ c main_arg2 (by decide)).trans (l3_arg2 m ρ c)
theorem l4_arg3 : W4 m ρ c (Proc.devRef .tc main_arg3) = aS m c :=
  (W4_of_ne m ρ c main_arg3 (by decide)).trans (l3_arg3 m ρ c)
theorem l4_arg8 : W4 m ρ c (Proc.devRef .tc main_arg8) = aW3 m c :=
  (W4_of_ne m ρ c main_arg8 (by decide)).trans (l3_arg8 m ρ c)
theorem l4_arg9 : W4 m ρ c (Proc.devRef .tc main_arg9) = ab3 m c :=
  (W4_of_ne m ρ c main_arg9 (by decide)).trans (l3_arg9 m ρ c)
theorem l4_arg10 : W4 m ρ c (Proc.devRef .tc main_arg10) = aW4 m c :=
  (W4_of_ne m ρ c main_arg10 (by decide)).trans (l3_arg10 m ρ c)
theorem l4_arg11 : W4 m ρ c (Proc.devRef .tc main_arg11) = ab4 m c :=
  (W4_of_ne m ρ c main_arg11 (by decide)).trans (l3_arg11 m ρ c)

/-! ## Boundary 5: after the third launch -/

theorem l5_v45 : W5 m ρ c (Proc.devRef .tc main_v45) = vG0 m c :=
  (W5_arr m ρ c 2).trans ((Proj2.value (V4 m ρ) c).trans (congrArg₂ Cert.Gcn.lin2 (l4_v44 m ρ c) (l4_arg6 m ρ c)))
theorem l5_v1 : W5 m ρ c (Proc.devRef .tc main_v1) = vSrc m c :=
  (W5_of_ne m ρ c main_v1 (by decide)).trans (l4_v1 m ρ c)
theorem l5_v3 : W5 m ρ c (Proc.devRef .tc main_v3) = vDst m c :=
  (W5_of_ne m ρ c main_v3 (by decide)).trans (l4_v3 m ρ c)
theorem l5_v25 : W5 m ρ c (Proc.devRef .tc main_v25) = vNorm m c :=
  (W5_of_ne m ρ c main_v25 (by decide)).trans (l4_v25 m ρ c)
theorem l5_v27 : W5 m ρ c (Proc.devRef .tc main_v27) = vSelf m c :=
  (W5_of_ne m ρ c main_v27 (by decide)).trans (l4_v27 m ρ c)
theorem l5_v29 : W5 m ρ c (Proc.devRef .tc main_v29) = vB2 m c :=
  (W5_of_ne m ρ c main_v29 (by decide)).trans (l4_v29 m ρ c)
theorem l5_arg2 : W5 m ρ c (Proc.devRef .tc main_arg2) = aB m c :=
  (W5_of_ne m ρ c main_arg2 (by decide)).trans (l4_arg2 m ρ c)
theorem l5_arg3 : W5 m ρ c (Proc.devRef .tc main_arg3) = aS m c :=
  (W5_of_ne m ρ c main_arg3 (by decide)).trans (l4_arg3 m ρ c)
theorem l5_arg8 : W5 m ρ c (Proc.devRef .tc main_arg8) = aW3 m c :=
  (W5_of_ne m ρ c main_arg8 (by decide)).trans (l4_arg8 m ρ c)
theorem l5_arg9 : W5 m ρ c (Proc.devRef .tc main_arg9) = ab3 m c :=
  (W5_of_ne m ρ c main_arg9 (by decide)).trans (l4_arg9 m ρ c)
theorem l5_arg10 : W5 m ρ c (Proc.devRef .tc main_arg10) = aW4 m c :=
  (W5_of_ne m ρ c main_arg10 (by decide)).trans (l4_arg10 m ρ c)
theorem l5_arg11 : W5 m ρ c (Proc.devRef .tc main_arg11) = ab4 m c :=
  (W5_of_ne m ρ c main_arg11 (by decide)).trans (l4_arg11 m ρ c)

/-! ## Boundary 6: after the third stretch -/

theorem l6_v58 : W6 m ρ c (Proc.devRef .tc main_v58) = vA2 m c :=
  (Stretch.c_v58 (W5 m ρ c)).trans (congr4 Cert.Gcn.agg64 (l5_v45 m ρ c) (l5_v1 m ρ c) (l5_v3 m ρ c) (l5_v25 m ρ c))
theorem l6_v45 : W6 m ρ c (Proc.devRef .tc main_v45) = vG0 m c :=
  (Stretch.c_v45 (W5 m ρ c)).trans (l5_v45 m ρ c)
theorem l6_v27 : W6 m ρ c (Proc.devRef .tc main_v27) = vSelf m c :=
  (Stretch.c_v27 (W5 m ρ c)).trans (l5_v27 m ρ c)
theorem l6_v29 : W6 m ρ c (Proc.devRef .tc main_v29) = vB2 m c :=
  (Stretch.c_v29 (W5 m ρ c)).trans (l5_v29 m ρ c)
theorem l6_arg2 : W6 m ρ c (Proc.devRef .tc main_arg2) = aB m c :=
  (Stretch.c_arg2 (W5 m ρ c)).trans (l5_arg2 m ρ c)
theorem l6_arg3 : W6 m ρ c (Proc.devRef .tc main_arg3) = aS m c :=
  (Stretch.c_arg3 (W5 m ρ c)).trans (l5_arg3 m ρ c)
theorem l6_arg8 : W6 m ρ c (Proc.devRef .tc main_arg8) = aW3 m c :=
  (Stretch.c_arg8 (W5 m ρ c)).trans (l5_arg8 m ρ c)
theorem l6_arg9 : W6 m ρ c (Proc.devRef .tc main_arg9) = ab3 m c :=
  (Stretch.c_arg9 (W5 m ρ c)).trans (l5_arg9 m ρ c)
theorem l6_arg10 : W6 m ρ c (Proc.devRef .tc main_arg10) = aW4 m c :=
  (Stretch.c_arg10 (W5 m ρ c)).trans (l5_arg10 m ρ c)
theorem l6_arg11 : W6 m ρ c (Proc.devRef .tc main_arg11) = ab4 m c :=
  (Stretch.c_arg11 (W5 m ρ c)).trans (l5_arg11 m ρ c)

/-! ## Boundary 7: after the fourth launch -/

theorem l7_v59 : W7 m ρ c (Proc.devRef .tc main_v59) = vH2 m c :=
  (W7_arr m ρ c 4).trans ((Post2.value (V6 m ρ) c).trans
    (congr4 Cert.Gcn.post2 (l6_v58 m ρ c) (l6_v45 m ρ c) (l6_v27 m ρ c) (l6_v29 m ρ c)))
theorem l7_arg2 : W7 m ρ c (Proc.devRef .tc main_arg2) = aB m c :=
  (W7_of_ne m ρ c main_arg2 (by decide)).trans (l6_arg2 m ρ c)
theorem l7_arg3 : W7 m ρ c (Proc.devRef .tc main_arg3) = aS m c :=
  (W7_of_ne m ρ c main_arg3 (by decide)).trans (l6_arg3 m ρ c)
theorem l7_arg8 : W7 m ρ c (Proc.devRef .tc main_arg8) = aW3 m c :=
  (W7_of_ne m ρ c main_arg8 (by decide)).trans (l6_arg8 m ρ c)
theorem l7_arg9 : W7 m ρ c (Proc.devRef .tc main_arg9) = ab3 m c :=
  (W7_of_ne m ρ c main_arg9 (by decide)).trans (l6_arg9 m ρ c)
theorem l7_arg10 : W7 m ρ c (Proc.devRef .tc main_arg10) = aW4 m c :=
  (W7_of_ne m ρ c main_arg10 (by decide)).trans (l6_arg10 m ρ c)
theorem l7_arg11 : W7 m ρ c (Proc.devRef .tc main_arg11) = ab4 m c :=
  (W7_of_ne m ρ c main_arg11 (by decide)).trans (l6_arg11 m ρ c)

/-! ## Boundary 8: after the last stretch -/

theorem l8_v71 : W8 m ρ c (Proc.devRef .tc main_v71) = vEmb m c :=
  (Stretch.d_v71 (W7 m ρ c)).trans (congrArg₂ Cert.Gcn.pool (l7_v59 m ρ c) (l7_arg2 m ρ c))
theorem l8_v72 : W8 m ρ c (Proc.devRef .tc main_v72) = vB3 m c :=
  (Stretch.d_v72 (W7 m ρ c)).trans (congrArg (fun v => shapeCast S1x128 v shapeCasts_S128_S1x128) (l7_arg9 m ρ c))
theorem l8_v73 : W8 m ρ c (Proc.devRef .tc main_v73) = vB4 m c :=
  (Stretch.d_v73 (W7 m ρ c)).trans (congrArg (fun v => shapeCast S1x1 v shapeCasts_S1_S1x1) (l7_arg11 m ρ c))
theorem l8_arg3 : W8 m ρ c (Proc.devRef .tc main_arg3) = aS m c :=
  (Stretch.d_arg3 (W7 m ρ c)).trans (l7_arg3 m ρ c)
theorem l8_arg8 : W8 m ρ c (Proc.devRef .tc main_arg8) = aW3 m c :=
  (Stretch.d_arg8 (W7 m ρ c)).trans (l7_arg8 m ρ c)
theorem l8_arg10 : W8 m ρ c (Proc.devRef .tc main_arg10) = aW4 m c :=
  (Stretch.d_arg10 (W7 m ρ c)).trans (l7_arg10 m ρ c)

/-! ## Boundary 9: after the last launch -/

theorem l9_v74 : W9 m ρ c (Proc.devRef .tc main_v74) = vOut m c :=
  (W9_arr m ρ c 6).trans ((Head.value (V8 m ρ) c).trans
    (congr6 Cert.Gcn.head (l8_v71 m ρ c) (l8_arg3 m ρ c) (l8_arg8 m ρ c) (l8_v72 m ρ c) (l8_arg10 m ρ c) (l8_v73 m ρ c)))

/-! ## The stages compose to the network -/

theorem vSelf_eq : vSelf m c = Cert.Gcn.nodeCol (Cert.Gcn.selfTerm (vDst m c)) := Cert.Gcn.Layout.col_cast _ _ _
theorem vB1_eq : vB1 m c = Cert.Gcn.row128 (ab1 m c) := Cert.Gcn.Layout.row_cast _ _ _
theorem vB2_eq : vB2 m c = Cert.Gcn.row64 (ab2 m c) := Cert.Gcn.Layout.row_cast _ _ _
theorem vB3_eq : vB3 m c = Cert.Gcn.row128 (ab3 m c) := Cert.Gcn.Layout.row_cast _ _ _
theorem vB4_eq : vB4 m c = Cert.Gcn.row1 (ab4 m c) := Cert.Gcn.Layout.row_cast _ _ _

theorem vH1_eq : vH1 m c = Cert.Gcn.layer1 (aX m c) (aE m c) (aW1 m c) (ab1 m c) :=
  congr4 Cert.Gcn.post1 rfl rfl (vSelf_eq m c) (vB1_eq m c)
theorem layer2_of (h : CF Cert.ReferenceIdeal.S100000x128) :
    Cert.Gcn.post2 (Cert.Gcn.agg64 (Cert.Gcn.lin2 h (aW2 m c)) (vSrc m c) (vDst m c) (vNorm m c)) (Cert.Gcn.lin2 h (aW2 m c)) (vSelf m c) (vB2 m c)
      = Cert.Gcn.layer2 h (aE m c) (aW2 m c) (ab2 m c) :=
  congr4 Cert.Gcn.post2 rfl rfl (vSelf_eq m c) (vB2_eq m c)
theorem vH2_eq : vH2 m c = Cert.Gcn.layer2 (Cert.Gcn.layer1 (aX m c) (aE m c) (aW1 m c) (ab1 m c)) (aE m c) (aW2 m c) (ab2 m c) :=
  (layer2_of m c (vH1 m c)).trans (congrArg (fun h => Cert.Gcn.layer2 h (aE m c) (aW2 m c) (ab2 m c)) (vH1_eq m c))
theorem vOut_eq : vOut m c = Cert.Gcn.net (aX m c) (aE m c) (aB m c) (aS m c) (aW1 m c) (ab1 m c) (aW2 m c) (ab2 m c) (aW3 m c) (ab3 m c) (aW4 m c) (ab4 m c) :=
  congr6 Cert.Gcn.head (congrArg₂ Cert.Gcn.pool (vH2_eq m c) rfl) rfl rfl (vB3_eq m c) rfl (vB4_eq m c)

/-- The network applied to the argument arrays as launched, as contents of the result buffer. -/
def netOf : Buf (Elt Ideal) ((c.tc : Thread nD τ).loc main_v74) :=
  Cert.Gcn.net (aX m c) (aE m c) (aB m c) (aS m c) (aW1 m c) (ab1 m c) (aW2 m c) (ab2 m c) (aW3 m c) (ab3 m c) (aW4 m c) (ab4 m c)

/-- The result buffer at the last boundary holds the network applied to the argument arrays as launched. -/
theorem result : W9 m ρ c (Proc.devRef .tc main_v74) = netOf m c :=
  (l9_v74 m ρ c).trans (vOut_eq m c)

end Cert.KernelIdeal.Chain

end
-- ==== Proof.Ref.lean ====
/-
  The reference's composed result term is the network of the specification applied to the argument arrays: the
  same array-level operations in the same order, the normalisation computed once per layer from the same edge list.
-/
import proofs.«108938_j82154134438094_1_alg».proof.Proof.Gen.ReferenceIdeal.Run
import proofs.«108938_j82154134438094_1_alg».proof.Proof.Spec

set_option maxRecDepth 16384

noncomputable section

namespace Cert.ReferenceIdeal.RefValue

open Idealize.ShloMosaic Idealize.ShloMosaic.TcCoe Idealize.SL.Sem
open Cert.ReferenceIdeal Cert.ReferenceIdeal.Gen

/-- The reference's result is the network applied to its argument arrays. -/
theorem result (m : (ℓ : Loc nD τ sig) → Buf (Elt Ideal) ℓ) (c : Dev nD) :
    Cert.ReferenceIdeal.Value.res_main_v120 (F := Ideal) m c
      = Cert.Gcn.net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  unfold Cert.ReferenceIdeal.Value.res_main_v120
  rfl

end Cert.ReferenceIdeal.RefValue

end
-- ==== Proof.lean ====
/-
  The certificate of a two-layer graph convolution with mean pooling and a two-layer head: the kernel program
  (five launches among stretches of array operations) against the plain array program.

  Both compute, over the extended reals, the same function of the twelve argument arrays (Proof/Spec.lean):
  with s, t the sources and targets of the edges, d the in-degree plus one, w_e = d^(-1/2)[s_e] d^(-1/2)[t_e],
    h1 = max (Σ_{e : t_e = ·} w_e (x W1)[s_e] + (x W1) / d + b1, 0),
    h2 =      Σ_{e : t_e = ·} w_e (h1 W2)[s_e] + (h1 W2) / d + b2,
    out = sigmoid (max ([mean_graph h2, scalars] W3 + b3, 0) W4 + b4).
  The two programs differ only in where the dense parts run.  The kernel program computes x W1 and h1 W2 in
  row blocks of 5000 (a block of the product is the product of the block of rows: Proj1, Proj2), the
  sum of messages, self term and bias in row blocks of 5000 (entry by entry: Post1, Post2), and the head in
  one block (Head); every sum over edges or nodes, every read at a list of positions and every index
  computation is the same array operation in both programs and is never opened.  The contents of the buffers
  are followed from boundary to boundary of the kernel program (Stretch, Chain), and the reference's composed
  term is the specification by unfolding (Ref).  No law that needs finiteness is used: the precondition is
  never opened.  The sanctioned idealization rewrote nothing, so that conjunct is trivial; the three frames are
  the generated ones.
-/
import proofs.«108938_j82154134438094_1_alg».proof.Defs
import proofs.«108938_j82154134438094_1_alg».proof.Proof.Gen.Kernel
import proofs.«108938_j82154134438094_1_alg».proof.Proof.Gen.Kernel.Skeleton
import proofs.«108938_j82154134438094_1_alg».proof.Proof.Gen.Kernel.Launch
import proofs.«108938_j82154134438094_1_alg».proof.Proof.Gen.Kernel.Points
import proofs.«108938_j82154134438094_1_alg».proof.Proof.Gen.Kernel.Frame
import proofs.«108938_j82154134438094_1_alg».proof.Proof.Gen.KernelIdeal
import proofs.«108938_j82154134438094_1_alg».proof.Proof.Gen.KernelIdeal.Skeleton
import proofs.«108938_j82154134438094_1_alg».proof.Proof.Gen.KernelIdeal.Launch
import proofs.«108938_j82154134438094_1_alg».proof.Proof.Gen.KernelIdeal.Points
import proofs.«108938_j82154134438094_1_alg».proof.Proof.Gen.KernelIdeal.Frame
import proofs.«108938_j82154134438094_1_alg».proof.Proof.Gen.ReferenceIdeal
import proofs.«108938_j82154134438094_1_alg».proof.Proof.Gen.Pre_finite_inputs
import proofs.«108938_j82154134438094_1_alg».proof.Proof.Gen.ReferenceIdeal.Run
import proofs.«108938_j82154134438094_1_alg».proof.Proof.Gen.ReferenceIdeal.Read
import proofs.«108938_j82154134438094_1_alg».proof.Proof.Whole
import proofs.«108938_j82154134438094_1_alg».proof.Proof.Chain
import proofs.«108938_j82154134438094_1_alg».proof.Proof.Ref
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network applied to those arguments in
    the result buffer: the kernel program's last boundary read back through its launches and stretches, the
    reference's composed term unfolded. -/
theorem algebraic : Cert.algebraic_KernelIdeal_ReferenceIdeal := by
  intro m ρ m' ρ' _ hagree
  refine ⟨fun c => Cert.KernelIdeal.Chain.netOf m c, ?_, ?_⟩
  · exact (θ_run Cert.KernelIdeal.defs _ _).mono
      (fun r h c => ⟨(h c).1.trans (Cert.KernelIdeal.Chain.result m ρ c), (h c).2⟩)
      (Cert.KernelIdeal.Whole.run (F := Ideal) m ρ)
  · refine (θ_run Cert.ReferenceIdeal.defs _ _).mono
      (fun r h c => ⟨(h c).1.trans ((Cert.ReferenceIdeal.RefValue.result m' c).trans ?_), (h c).2⟩)
      (Cert.ReferenceIdeal.Value.run (F := Ideal) m' ρ')
    obtain ⟨e0, e1, e2, e3, e4, e5, e6, e7, e8, e9, e10, e11⟩ := hagree c
    rw [e0, e1, e2, e3, e4, e5, e6, e7, e8, e9, e10, e11]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
